-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  main_v3
-- ==== Kernel.lean ====
abbrev S32x3x512x512 : Shape := ⟨4, ![32, 3, 512, 512]⟩
abbrev S96x512x512 : Shape := ⟨3, ![96, 512, 512]⟩
abbrev S8x512x512 : Shape := ⟨3, ![8, 512, 512]⟩

abbrev nBuf : Space → Nat
  | .hbm => 4
  | .vmem => 4
  | .smem => 0
  | _ => 0

abbrev bufTy : (tb : Table) → Fin (tcTables nBuf tb) → BufTy
  | .hbm, ⟨0, _⟩ => ⟨S32x3x512x512, .f32⟩
  | .hbm, ⟨1, _⟩ => ⟨S96x512x512, .f32⟩
  | .hbm, ⟨2, _⟩ => ⟨S96x512x512, .f32⟩
  | .hbm, ⟨3, _⟩ => ⟨S32x3x512x512, .f32⟩
  | .local _ .vmem, ⟨0, _⟩ => ⟨S8x512x512, .f32⟩
  | .local _ .vmem, ⟨1, _⟩ => ⟨S8x512x512, .f32⟩
  | .local _ .vmem, ⟨2, _⟩ => ⟨S8x512x512, .f32⟩
  | .local _ .vmem, ⟨3, _⟩ => ⟨S8x512x512, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x3x512x512_S96x512x512 : S32x3x512x512.ShapeCasts S96x512x512
  inb_S8x512x512_S8x512x512_0_0_0 : ∀ a, (![0, 0, 0] : Fin 3 → Nat) a + S8x512x512.size a ≤ S8x512x512.size a
  h_S8x512x512 : 0 < S8x512x512.numel
  shapeCasts_S8x512x512_S8x512x512 : S8x512x512.ShapeCasts S8x512x512
  shapeCasts_S96x512x512_S32x3x512x512 : S96x512x512.ShapeCasts S32x3x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x512.size a ≤ S96x512x512.size a
  hwx0_0 : ∀ i : grid0.Coords, EltTy.bits .f32 = 32 ∨ (Rect.block (s := S96x512x512) S8x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x512.size a ≤ S96x512x512.size a
  hwx0_1 : ∀ i : grid0.Coords, EltTy.bits .f32 = 32 ∨ (Rect.block (s := S96x512x512) S8x512x512.size (cc0_transform_1 i) (hinb0_1 i)).WholeWords (EltTy.packing .f32)

variable [Facts₀]

abbrev win0_0 : Pipeline.Window sig grid0 :=
  Pipeline.Window.ofSpec (Memref.whole main_v0) S8x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S32x3x512x512 : Shape := ⟨4, ![32, 3, 512, 512]⟩
abbrev S32x3x256x2x256x2 : Shape := ⟨6, ![32, 3, 256, 2, 256, 2]⟩
abbrev S32x3x256x1x256x1 : Shape := ⟨6, ![32, 3, 256, 1, 256, 1]⟩
abbrev S32x3x256x256 : Shape := ⟨4, ![32, 3, 256, 256]⟩
abbrev S_ : Shape := ⟨0, ![]⟩
abbrev S32x3x128x2x128x2 : Shape := ⟨6, ![32, 3, 128, 2, 128, 2]⟩
abbrev S32x3x128x1x128x1 : Shape := ⟨6, ![32, 3, 128, 1, 128, 1]⟩
abbrev S32x3x128x128 : Shape := ⟨4, ![32, 3, 128, 128]⟩
abbrev S32x3x128x128x1 : Shape := ⟨5, ![32, 3, 128, 128, 1]⟩
abbrev S32x3x128x128x2 : Shape := ⟨5, ![32, 3, 128, 128, 2]⟩
abbrev S32x3x128x1x128x2 : Shape := ⟨6, ![32, 3, 128, 1, 128, 2]⟩
abbrev S32x3x256x256x1 : Shape := ⟨5, ![32, 3, 256, 256, 1]⟩
abbrev S32x3x256x256x2 : Shape := ⟨5, ![32, 3, 256, 256, 2]⟩
abbrev S32x3x256x1x256x2 : Shape := ⟨6, ![32, 3, 256, 1, 256, 2]⟩

abbrev nBuf : Space → Nat
  | .hbm => 135
  | .vmem => 0
  | .smem => 0
  | _ => 0

abbrev hbmTy0_0 (i : Nat) : BufTy := match i % 128 with
  | 0 => ⟨S32x3x512x512, .f32⟩
  | 1 => ⟨S32x3x256x2x256x2, .f32⟩
  | 2 => ⟨S32x3x256x1x256x1, .f32⟩
  | 3 => ⟨S32x3x256x256, .f32⟩
  | 4 => ⟨S32x3x256x1x256x1, .f32⟩
  | 5 => ⟨S32x3x256x256, .f32⟩
  | 6 => ⟨S32x3x256x1x256x1, .f32⟩
  | 7 => ⟨S32x3x256x256, .f32⟩
  | 8 => ⟨S32x3x256x1x256x1, .f32⟩
  | 9 => ⟨S32x3x256x256, .f32⟩
  | 10 => ⟨S32x3x256x256, .f32⟩
  | 11 => ⟨S32x3x256x256, .f32⟩
  | 12 => ⟨S32x3x256x256, .f32⟩
  | 13 => ⟨S_, .f32⟩
  | 14 => ⟨S32x3x256x256, .f32⟩
  | 15 => ⟨S32x3x256x256, .f32⟩
  | 16 => ⟨S32x3x256x256, .f32⟩
  | 17 => ⟨S32x3x256x256, .f32⟩
  | 18 => ⟨S32x3x256x256, .f32⟩
  | 19 => ⟨S_, .f32⟩
  | 20 => ⟨S32x3x256x256, .f32⟩
  | 21 => ⟨S32x3x256x256, .f32⟩
  | 22 => ⟨S32x3x256x256, .f32⟩
  | 23 => ⟨S32x3x256x256, .f32⟩
  | 24 => ⟨S32x3x256x256, .f32⟩
  | 25 => ⟨S_, .f32⟩
  | 26 => ⟨S32x3x256x256, .f32⟩
  | 27 => ⟨S32x3x256x256, .f32⟩
  | 28 => ⟨S32x3x256x256, .f32⟩
  | 29 => ⟨S32x3x256x256, .f32⟩
  | 30 => ⟨S32x3x256x256, .f32⟩
  | 31 => ⟨S_, .f32⟩
  | 32 => ⟨S32x3x256x256, .f32⟩
  | 33 => ⟨S32x3x256x256, .f32⟩
  | 34 => ⟨S32x3x128x2x128x2, .f32⟩
  | 35 => ⟨S32x3x128x1x128x1, .f32⟩
  | 36 => ⟨S32x3x128x128, .f32⟩
  | 37 => ⟨S32x3x128x1x128x1, .f32⟩
  | 38 => ⟨S32x3x128x128, .f32⟩
  | 39 => ⟨S32x3x128x1x128x1, .f32⟩
  | 40 => ⟨S32x3x128x128, .f32⟩
  | 41 => ⟨S32x3x128x1x128x1, .f32⟩
  | 42 => ⟨S32x3x128x128, .f32⟩
  | 43 => ⟨S32x3x128x128, .f32⟩
  | 44 => ⟨S32x3x128x128, .f32⟩
  | 45 => ⟨S32x3x128x128, .f32⟩
  | 46 => ⟨S_, .f32⟩
  | 47 => ⟨S32x3x128x128, .f32⟩
  | 48 => ⟨S32x3x128x128, .f32⟩
  | 49 => ⟨S32x3x128x128, .f32⟩
  | 50 => ⟨S32x3x128x128, .f32⟩
  | 51 => ⟨S32x3x128x128, .f32⟩
  | 52 => ⟨S_, .f32⟩
  | 53 => ⟨S32x3x128x128, .f32⟩
  | 54 => ⟨S32x3x128x128, .f32⟩
  | 55 => ⟨S32x3x128x128, .f32⟩
  | 56 => ⟨S32x3x128x128, .f32⟩
  | 57 => ⟨S32x3x128x128, .f32⟩
  | 58 => ⟨S_, .f32⟩
  | 59 => ⟨S32x3x128x128, .f32⟩
  | 60 => ⟨S32x3x128x128, .f32⟩
  | 61 => ⟨S32x3x128x128, .f32⟩
  | 62 => ⟨S32x3x128x128, .f32⟩
  | 63 => ⟨S32x3x128x128, .f32⟩
  | 64 => ⟨S_, .f32⟩
  | 65 => ⟨S32x3x128x128, .f32⟩
  | 66 => ⟨S32x3x128x128, .f32⟩
  | 67 => ⟨S32x3x128x128, .f32⟩
  | 68 => ⟨S32x3x128x128, .f32⟩
  | 69 => ⟨S32x3x128x128, .f32⟩
  | 70 => ⟨S_, .f32⟩
  | 71 => ⟨S32x3x128x128, .f32⟩
  | 72 => ⟨S32x3x128x128, .f32⟩
  | 73 => ⟨S32x3x128x128, .f32⟩
  | 74 => ⟨S32x3x128x128, .f32⟩
  | 75 => ⟨S32x3x128x128, .f32⟩
  | 76 => ⟨S_, .f32⟩
  | 77 => ⟨S32x3x128x128, .f32⟩
  | 78 => ⟨S32x3x128x128, .f32⟩
  | 79 => ⟨S32x3x128x128, .f32⟩
  | 80 => ⟨S32x3x128x128, .f32⟩
  | 81 => ⟨S32x3x128x128, .f32⟩
  | 82 => ⟨S_, .f32⟩
  | 83 => ⟨S32x3x128x128, .f32⟩
  | 84 => ⟨S32x3x128x128, .f32⟩
  | 85 => ⟨S32x3x128x128, .f32⟩
  | 86 => ⟨S32x3x128x128, .f32⟩
  | 87 => ⟨S32x3x128x128, .f32⟩
  | 88 => ⟨S_, .f32⟩
  | 89 => ⟨S32x3x128x128, .f32⟩
  | 90 => ⟨S32x3x128x128, .f32⟩
  | 91 => ⟨S32x3x128x128x1, .f32⟩
  | 92 => ⟨S32x3x128x128x1, .f32⟩
  | 93 => ⟨S32x3x128x128x2, .f32⟩
  | 94 => ⟨S32x3x128x128x1, .f32⟩
  | 95 => ⟨S32x3x128x128x1, .f32⟩
  | 96 => ⟨S32x3x128x128x2, .f32⟩
  | 97 => ⟨S32x3x128x1x128x2, .f32⟩
  | 98 => ⟨S32x3x128x1x128x2, .f32⟩
  | 99 => ⟨S32x3x128x2x128x2, .f32⟩
  | 100 => ⟨S32x3x256x256, .f32⟩
  | 101 => ⟨S32x3x256x256, .f32⟩
  | 102 => ⟨S32x3x256x256, .f32⟩
  | 103 => ⟨S32x3x256x256, .f32⟩
  | 104 => ⟨S_, .f32⟩
  | 105 => ⟨S32x3x256x256, .f32⟩
  | 106 => ⟨S32x3x256x256, .f32⟩
  | 107 => ⟨S32x3x256x256, .f32⟩
  | 108 => ⟨S32x3x256x256, .f32⟩
  | 109 => ⟨S32x3x256x256, .f32⟩
  | 110 => ⟨S_, .f32⟩
  | 111 => ⟨S32x3x256x256, .f32⟩
  | 112 => ⟨S32x3x256x256, .f32⟩
  | 113 => ⟨S32x3x256x256, .f32⟩
  | 114 => ⟨S32x3x256x256, .f32⟩
  | 115 => ⟨S32x3x256x256, .f32⟩
  | 116 => ⟨S_, .f32⟩
  | 117 => ⟨S32x3x256x256, .f32⟩
  | 118 => ⟨S32x3x256x256, .f32⟩
  | 119 => ⟨S32x3x256x256, .f32⟩
  | 120 => ⟨S32x3x256x256, .f32⟩
  | 121 => ⟨S32x3x256x256, .f32⟩
  | 122 => ⟨S_, .f32⟩
  | 123 => ⟨S32x3x256x256, .f32⟩
  | 124 => ⟨S32x3x256x256, .f32⟩
  | 125 => ⟨S32x3x256x256x1, .f32⟩
  | 126 => ⟨S32x3x256x256x1, .f32⟩
  | 127 => ⟨S32x3x256x256x2, .f32⟩
  | _ => ⟨S32x3x512x512, .f32⟩

abbrev hbmTy0_1 (i : Nat) : BufTy := match i % 128 with
  | 0 => ⟨S32x3x256x256x1, .f32⟩
  | 1 => ⟨S32x3x256x256x1, .f32⟩
  | 2 => ⟨S32x3x256x256x2, .f32⟩
  | 3 => ⟨S32x3x256x1x256x2, .f32⟩
  | 4 => ⟨S32x3x256x1x256x2, .f32⟩
  | 5 => ⟨S32x3x256x2x256x2, .f32⟩
  | 6 => ⟨S32x3x512x512, .f32⟩
  | _ => ⟨S32x3x512x512, .f32⟩

abbrev hbmTy (i : Nat) : BufTy := match i / 128 with
  | 0 => hbmTy0_0 i
  | 1 => hbmTy0_1 i
  | _ => ⟨S32x3x512x512, .f32⟩

abbrev bufTy : (tb : Table) → Fin (tcTables nBuf tb) → BufTy
  | .hbm, ⟨i, _⟩ => hbmTy i
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst_0 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_1 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_2 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_cst_3 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_cst_4 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_cst_5 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_cst_6 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_cst_7 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_8 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_cst_9 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_cst_10 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_cst_11 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_cst_12 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_cst_13 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_cst_14 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩

abbrev nD : Nat := 1
abbrev τ : Topo := Topo.v7x

variable {F : FTy → Type} [FloatOps F]

class Facts₀ : Prop where
  shapeCasts_S32x3x512x512_S32x3x256x2x256x2 : S32x3x512x512.ShapeCasts S32x3x256x2x256x2
  slices_S32x3x256x2x256x2_S32x3x256x1x256x1_0_0_0_0_0_0 : S32x3x256x2x256x2.Slices ![0, 0, 0, 0, 0, 0] S32x3x256x1x256x1
  shapeCasts_S32x3x256x1x256x1_S32x3x256x256 : S32x3x256x1x256x1.ShapeCasts S32x3x256x256
  slices_S32x3x256x2x256x2_S32x3x256x1x256x1_0_0_0_0_0_1 : S32x3x256x2x256x2.Slices ![0, 0, 0, 0, 0, 1] S32x3x256x1x256x1
  slices_S32x3x256x2x256x2_S32x3x256x1x256x1_0_0_0_1_0_0 : S32x3x256x2x256x2.Slices ![0, 0, 0, 1, 0, 0] S32x3x256x1x256x1
  slices_S32x3x256x2x256x2_S32x3x256x1x256x1_0_0_0_1_0_1 : S32x3x256x2x256x2.Slices ![0, 0, 0, 1, 0, 1] S32x3x256x1x256x1
  bcast_S_S32x3x256x256 : S_.BroadcastsInDim S32x3x256x256 (![] : Fin 0 → Fin S32x3x256x256.rank)
  shapeCasts_S32x3x256x256_S32x3x128x2x128x2 : S32x3x256x256.ShapeCasts S32x3x128x2x128x2
  slices_S32x3x128x2x128x2_S32x3x128x1x128x1_0_0_0_0_0_0 : S32x3x128x2x128x2.Slices ![0, 0, 0, 0, 0, 0] S32x3x128x1x128x1
  shapeCasts_S32x3x128x1x128x1_S32x3x128x128 : S32x3x128x1x128x1.ShapeCasts S32x3x128x128
  slices_S32x3x128x2x128x2_S32x3x128x1x128x1_0_0_0_0_0_1 : S32x3x128x2x128x2.Slices ![0, 0, 0, 0, 0, 1] S32x3x128x1x128x1
  slices_S32x3x128x2x128x2_S32x3x128x1x128x1_0_0_0_1_0_0 : S32x3x128x2x128x2.Slices ![0, 0, 0, 1, 0, 0] S32x3x128x1x128x1
  slices_S32x3x128x2x128x2_S32x3x128x1x128x1_0_0_0_1_0_1 : S32x3x128x2x128x2.Slices ![0, 0, 0, 1, 0, 1] S32x3x128x1x128x1
  bcast_S_S32x3x128x128 : S_.BroadcastsInDim S32x3x128x128 (![] : Fin 0 → Fin S32x3x128x128.rank)
  bcast_S32x3x128x128_S32x3x128x128x1_0_1_2_3 : S32x3x128x128.BroadcastsInDim S32x3x128x128x1 (![0, 1, 2, 3] : Fin 4 → Fin S32x3x128x128x1.rank)
  concatenates_S32x3x128x128x1_S32x3x128x128x1_S32x3x128x128x2_d4 : Shape.Concatenates [S32x3x128x128x1, S32x3x128x128x1] S32x3x128x128x2 4
  bcast_S32x3x128x128x2_S32x3x128x1x128x2_0_1_2_4_5 : S32x3x128x128x2.BroadcastsInDim S32x3x128x1x128x2 (![0, 1, 2, 4, 5] : Fin 5 → Fin S32x3x128x1x128x2.rank)
  concatenates_S32x3x128x1x128x2_S32x3x128x1x128x2_S32x3x128x2x128x2_d3 : Shape.Concatenates [S32x3x128x1x128x2, S32x3x128x1x128x2] S32x3x128x2x128x2 3
  shapeCasts_S32x3x128x2x128x2_S32x3x256x256 : S32x3x128x2x128x2.ShapeCasts S32x3x256x256
  bcast_S32x3x256x256_S32x3x256x256x1_0_1_2_3 : S32x3x256x256.BroadcastsInDim S32x3x256x256x1 (![0, 1, 2, 3] : Fin 4 → Fin S32x3x256x256x1.rank)
  concatenates_S32x3x256x256x1_S32x3x256x256x1_S32x3x256x256x2_d4 : Shape.Concatenates [S32x3x256x256x1, S32x3x256x256x1] S32x3x256x256x2 4
  bcast_S32x3x256x256x2_S32x3x256x1x256x2_0_1_2_4_5 : S32x3x256x256x2.BroadcastsInDim S32x3x256x1x256x2 (![0, 1, 2, 4, 5] : Fin 5 → Fin S32x3x256x1x256x2.rank)
  concatenates_S32x3x256x1x256x2_S32x3x256x1x256x2_S32x3x256x2x256x2_d3 : Shape.Concatenates [S32x3x256x1x256x2, S32x3x256x1x256x2] S32x3x256x2x256x2 3
  shapeCasts_S32x3x256x2x256x2_S32x3x512x512 : S32x3x256x2x256x2.ShapeCasts S32x3x512x512

variable [Facts₀]

class Facts : Prop extends Facts₀ where

variable [Facts]
-- ==== Proof.KernelValue.lean ====
/- The kernel side of the equivalence: the idealized program returns its argument.

   The program reshapes x : [32,3,512,512] to [96,512,512], runs a copy over a grid of 12 points — point t
   loads rows 8t … 8t+7 (a block [8,512,512]) of the reshaped array and stores them, unchanged, as rows
   8t … 8t+7 of the output array — and reshapes the output back to [32,3,512,512].

   The argument in four steps:
   * what one point leaves in the output's block is the input's block (the body's one store carries a cast of
     its one load to the same shape, which is the identity);
   * the input's and the output's windows have the same index map (block index (t, 0, 0) at point t), so the
     block written at point t is the same rectangle of the reshaped input as of the output; the 12 blocks
     cover all 96 rows (row r lies in block r / 8), hence the whole output array equals the reshaped input;
   * the reshaped input is the row-major re-indexing of x;
   * re-indexing [32,3,512,512] → [96,512,512] → [32,3,512,512] is the identity. -/
import proofs.«144112_j39943195853363_2_alg».proof.Proof.Gen.KernelIdeal.Frame
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.CopyValue

open Cert.KernelIdeal Cert.KernelIdeal.Gen

variable {F : FTy → Type} [FloatOps F]
variable (m : (ℓ : Loc nD τ sig) → Buf (Elt F) ℓ) (ρ : Dev nD → PrngReg)

/-! ## One grid point: the body copies its block -/

/-- The body's load and store both address the whole block: offsets (0, 0, 0). -/
theorem zero_offsets : (![0, 0, 0] : Fin 3 → Nat) = fun _ => 0 := funext fun a => by fin_cases a <;> rfl

/-- The stored value is the loaded block cast to its own shape [8,512,512]: the block itself. -/
theorem pay_eq (x0 : Vec F S8x512x512 .f32) : k0_pay1 x0 = x0 := by
  unfold k0_pay1
  exact shapeCast_self _ _

/-- One store over the whole output block of the whole input block: after the body the output block IS the
    input block. -/
theorem out_eq (x0 : Vec F S8x512x512 .f32) : out0_1 x0 = x0 := by
  unfold out0_1
  rw [View.canon_unit_zero zero_offsets, View.ld_unit_zero (S := S8x512x512) zero_offsets, pay_eq]

/-! ## The blocks: both windows are at block (t, 0, 0) at point t -/

/-- The two index maps agree at each of the 12 grid points, axis by axis, and the common block index is
    (t, 0, 0). -/
theorem idx_facts : ∀ t : Fin cfg0.N, win0_0.index t (0 : Fin 3) = win0_1.index t (0 : Fin 3)
    ∧ win0_0.index t (1 : Fin 3) = win0_1.index t (1 : Fin 3)
    ∧ win0_0.index t (2 : Fin 3) = win0_1.index t (2 : Fin 3)
    ∧ win0_1.index t (0 : Fin 3) = t.val
    ∧ win0_1.index t (1 : Fin 3) = 0
    ∧ win0_1.index t (2 : Fin 3) = 0 :=
  (by decide +kernel : ∀ t : Fin grid0.N, _)

/-- The reshaped input [96,512,512] as the copy finds it: what the output array is to end holding. -/
abbrev G (c : Dev nD) : S96x512x512.Idx → Elt F .f32 := V m c main_v0

/-- What point t writes back to the output array is block t of the reshaped input: entry j of the block sits
    at coordinate (block index) × (block size) + j on each axis, in the input's window and in the output's
    alike, because their block indices agree. -/
theorem flushed_eq (c : Dev nD) (t : Fin cfg0.N) :
    (dats m 0 c).flushed 1 t = ((cfg0.win 1).blk t).view.read (Elt F) (G m c) := by
  show (cfg0.win 1).cut (grid0.coords t) ((dats m 0 c).after 1 t) = _
  rw [after0_1, out_eq]
  obtain ⟨e0, e1, e2, -, -, -⟩ := idx_facts t
  funext j
  show V m c main_v0 (((cfg0.win 0).blk t).view.emb j) = V m c main_v0 (((cfg0.win 1).blk t).view.emb j)
  refine congrArg (V m c main_v0) ?_
  funext a; apply Fin.ext
  match a with
  | ⟨0, _⟩ => show win0_0.index t (0 : Fin 3) * 8 + 1 * (j 0).val = win0_1.index t (0 : Fin 3) * 8 + 1 * (j 0).val; omega
  | ⟨1, _⟩ => show win0_0.index t (1 : Fin 3) * 512 + 1 * (j 1).val = win0_1.index t (1 : Fin 3) * 512 + 1 * (j 1).val; omega
  | ⟨2, _⟩ => show win0_0.index t (2 : Fin 3) * 512 + 1 * (j 2).val = win0_1.index t (2 : Fin 3) * 512 + 1 * (j 2).val; omega

/-- An index of the output array is in point t's block iff, on each axis, its coordinate lies in the block's
    range: from (block index) × (block size), for (block size) entries. -/
theorem mem_blk (t : Fin cfg0.N) (i : S96x512x512.Idx) :
    i ∈ ((cfg0.win 1).blk t).view.set ↔ ∀ a : Fin 3, win0_1.index t a * S8x512x512.size a ≤ (i a).val ∧ (i a).val < win0_1.index t a * S8x512x512.size a + S8x512x512.size a := by
  show i ∈ ((View.whole main_v1).slice (win0_1.rect t)).set ↔ _
  rw [View.set_slice_whole, Rect.mem_set_unit]
  exact Iff.rfl

/-- The 12 blocks cover the output array: row r of the 96 lies in block r / 8, and each block spans the two
    trailing axes whole. -/
theorem cover (i : S96x512x512.Idx) :
    ∃ t : Fin cfg0.N, (cfg0.win 1).flush t = true ∧ i ∈ ((cfg0.win 1).blk t).view.set := by
  have hi0 : (i 0).val < 96 := (i 0).isLt
  have hi1 : (i 1).val < 512 := (i 1).isLt
  have hi2 : (i 2).val < 512 := (i 2).isLt
  have hN : cfg0.N = 12 := N_0
  let t : Fin cfg0.N := ⟨(i 0).val / 8, by omega⟩
  obtain ⟨-, -, -, q0, q1, q2⟩ := idx_facts t
  have q0' : win0_1.index t (0 : Fin 3) = (i 0).val / 8 := q0
  refine ⟨t, flush0_1 t, ?_⟩
  rw [mem_blk]
  intro a
  match a with
  | ⟨0, _⟩ => show win0_1.index t (0 : Fin 3) * 8 ≤ (i 0).val ∧ (i 0).val < win0_1.index t (0 : Fin 3) * 8 + 8; omega
  | ⟨1, _⟩ => show win0_1.index t (1 : Fin 3) * 512 ≤ (i 1).val ∧ (i 1).val < win0_1.index t (1 : Fin 3) * 512 + 512; omega
  | ⟨2, _⟩ => show win0_1.index t (2 : Fin 3) * 512 ≤ (i 2).val ∧ (i 2).val < win0_1.index t (2 : Fin 3) * 512 + 512; omega

/-- So after the 12 points the output array [96,512,512] is the reshaped input, entry for entry. -/
theorem final (c : Dev nD) : (dats m 0 c).arrAt 1 cfg0.N = G m c :=
  (dats m 0 c).arrAt_eq_of_cover 1 (G m c) (fun t _ => flushed_eq m c t) cover

/-! ## The two reshapes -/

/-- The reshaped input is the row-major re-indexing [32,3,512,512] → [96,512,512] of the argument (the copy
    into the output's buffer that follows it writes another buffer). -/
theorem G_eq (c : Dev nD) :
    G m c = shapeCast S96x512x512 (m ((c : Thread nD τ).loc main_arg0) : S32x3x512x512.Idx → Elt F .f32) shapeCasts_S32x3x512x512_S96x512x512 := by
  show StableHlo.after (List.flatten [hostOps0]) (fun b => m (c, b)) (Proc.devRef .tc main_v0) = _
  simp only [hostOps0, List.flatten_cons, List.flatten_nil, List.append_nil, List.cons_append, List.nil_append]
  after_results
  rfl

/-- The result: the output array re-indexed back [96,512,512] → [32,3,512,512]. The output array is the
    argument re-indexed forth, and re-indexing forth and back is the identity: the result is the argument. -/
theorem tail_eq (c : Dev nD) :
    Pipeline.afterTail₀ cfgs (dats m) 0 (V0 m) [hostOps1] c main_v2 = m ((c : Thread nD τ).loc main_arg0) := by
  unfold Pipeline.afterTail₀
  show StableHlo.after hostOps1 _ (Proc.devRef .tc main_v2) = _
  after_results
  have e : Pipeline.withArrays spec0 c (V0 m c) (fun w => (dats m 0 c).arrAt w cfg0.N) (Proc.devRef .tc (Pipeline.arrRef spec0 1)) = G m c :=
    (Pipeline.withArrays_arr spec0 launch0.win.arr_inj c (V0 m c) (fun w => (dats m 0 c).arrAt w cfg0.N) 1).trans (final m c)
  show shapeCast S32x3x512x512 (Pipeline.withArrays spec0 c (V0 m c) (fun w => (dats m 0 c).arrAt w cfg0.N) (Proc.devRef .tc (Pipeline.arrRef spec0 1))) shapeCasts_S96x512x512_S32x3x512x512 = _
  rw [e, G_eq]
  exact shapeCast_shapeCast _ _ _

/-! ## The run -/

/-- Every run of the program terminates with its result equal to its argument, and the argument unchanged. -/
theorem run : θ_run defs (onTc (τ := τ) (main (F := F))) ⟨m, fun _ => 0, ρ⟩ (fun r => ∀ c : Dev nD,
      r.2.mem ((c.tc : Thread nD τ).loc main_v2) = m ((c.tc : Thread nD τ).loc main_arg0)
      ∧ r.2.mem ((c.tc : Thread nD τ).loc main_arg0) = m ((c.tc : Thread nD τ).loc main_arg0)) :=
  (θ_run defs _ _).mono (fun _ h c =>
    ⟨((h c).2 main_v2 (Pipeline.mem_restRefs_of main_v2 (by decide) (by decide))).trans (tail_eq m c),
     ((h c).2 main_arg0 (Pipeline.mem_restRefs_of main_arg0 (by decide) (by decide))).trans (W_main_arg0 m (dats m) c)⟩)
    (run_main m ρ)

end Cert.KernelIdeal.CopyValue

end
-- ==== Proof.RefRun.lean ====
/- The reference program's run, read stretch by stretch.

   @main is a line of 134 operations: a two-level 2×2 block transform of x : [32,3,512,512] followed by its
   two-level inverse. Cut into eight stretches — split into corners, transform, split the low band, transform,
   invert, interleave, invert, interleave — each stretch reads only a handful of the buffers written before
   it, so what it leaves is a short term of THOSE buffers' contents, whatever they are. Chaining the eight
   gives the result as the composed term of the argument, with the intermediate arrays that several later
   operations read (the corners, the bands, the reconstructed low band) kept as named terms. -/
import proofs.«144112_j39943195853363_2_alg».proof.Proof.Gen.ReferenceIdeal
import Idealize.ShloMosaic.Lib.StableHlo.Run
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The program as a line of operations, in eight stretches -/

/-- The argument x viewed as 2×2 cells, [32,3,256,2,256,2] (entry (b,c,i,p,j,q) is x[b,c,2i+p,2j+q]), and the four corners of every cell as arrays [32,3,256,256]: a = x[2i,2j], b = x[2i,2j+1], c = x[2i+1,2j], d = x[2i+1,2j+1]. -/
abbrev S1 : List (HloOp τ sig (Elt F)) :=
  [ reshape main_arg0 main_v0 rfl shapeCasts_S32x3x512x512_S32x3x256x2x256x2,
    unary main_v0 main_v1 ((extractStridedSlice S32x3x256x1x256x1 ![0, 0, 0, 0, 0, 0] · slices_S32x3x256x2x256x2_S32x3x256x1x256x1_0_0_0_0_0_0) : (⟨S32x3x256x2x256x2, .f32⟩ : BufTy).Contents (Elt F) → (⟨S32x3x256x1x256x1, .f32⟩ : BufTy).Contents (Elt F)),
    reshape main_v1 main_v2 rfl shapeCasts_S32x3x256x1x256x1_S32x3x256x256,
    unary main_v0 main_v3 ((extractStridedSlice S32x3x256x1x256x1 ![0, 0, 0, 0, 0, 1] · slices_S32x3x256x2x256x2_S32x3x256x1x256x1_0_0_0_0_0_1) : (⟨S32x3x256x2x256x2, .f32⟩ : BufTy).Contents (Elt F) → (⟨S32x3x256x1x256x1, .f32⟩ : BufTy).Contents (Elt F)),
    reshape main_v3 main_v4 rfl shapeCasts_S32x3x256x1x256x1_S32x3x256x256,
    unary main_v0 main_v5 ((extractStridedSlice S32x3x256x1x256x1 ![0, 0, 0, 1, 0, 0] · slices_S32x3x256x2x256x2_S32x3x256x1x256x1_0_0_0_1_0_0) : (⟨S32x3x256x2x256x2, .f32⟩ : BufTy).Contents (Elt F) → (⟨S32x3x256x1x256x1, .f32⟩ : BufTy).Contents (Elt F)),
    reshape main_v5 main_v6 rfl shapeCasts_S32x3x256x1x256x1_S32x3x256x256,
    unary main_v0 main_v7 ((extractStridedSlice S32x3x256x1x256x1 ![0, 0, 0, 1, 0, 1] · slices_S32x3x256x2x256x2_S32x3x256x1x256x1_0_0_0_1_0_1) : (⟨S32x3x256x2x256x2, .f32⟩ : BufTy).Contents (Elt F) → (⟨S32x3x256x1x256x1, .f32⟩ : BufTy).Contents (Elt F)),
    reshape main_v7 main_v8 rfl shapeCasts_S32x3x256x1x256x1_S32x3x256x256 ]

/-- The level-1 transform of the corners, each band scaled by 1/2: the low band (a+b+c+d)/2 and the three high bands (c+d−a−b)/2, (b+d−a−c)/2, (a+d−b−c)/2. -/
abbrev S2 : List (HloOp τ sig (Elt F)) :=
  [ binary main_v2 main_v4 main_v9 (addf : (⟨S32x3x256x256, .f32⟩ : BufTy).Contents (Elt F) → (⟨S32x3x256x256, .f32⟩ : BufTy).Contents (Elt F) → (⟨S32x3x256x256, .f32⟩ : BufTy).Contents (Elt F)),
    binary main_v9 main_v6 main_v10 (addf : (⟨S32x3x256x256, .f32⟩ : BufTy).Contents (Elt F) → (⟨S32x3x256x256, .f32⟩ : BufTy).Contents (Elt F) → (⟨S32x3x256x256, .f32⟩ : BufTy).Contents (Elt F)),
    binary main_v10 main_v8 main_v11 (addf : (⟨S32x3x256x256, .f32⟩ : BufTy).Contents (Elt F) → (⟨S32x3x256x256, .f32⟩ : BufTy).Contents (Elt F) → (⟨S32x3x256x256, .f32⟩ : BufTy).Contents (Elt F)),
    nullary main_cst (constant S_ .f32 0x3F000000#32),
    unary main_cst main_v12 (broadcastInDim S32x3x256x256 ![] bcast_S_S32x3x256x256 : (⟨S_, .f32⟩ : BufTy).Contents (Elt F) → (⟨S32x3x256x256, .f32⟩ : BufTy).Contents (Elt F)),
    binary main_v11 main_v12 main_v13 (mulf : (⟨S32x3x256x256, .f32⟩ : BufTy).Contents (Elt F) → (⟨S32x3x256x256, .f32⟩ : BufTy).Contents (Elt F) → (⟨S32x3x256x256, .f32⟩ : BufTy).Contents (Elt F)),
    binary main_v6 main_v8 main_v14 (addf : (⟨S32x3x256x256, .f32⟩ : BufTy).Contents (Elt F) → (⟨S32x3x256x256, .f32⟩ : BufTy).Contents (Elt F) → (⟨S32x3x256x256, .f32⟩ : BufTy).Contents (Elt F)),
    binary main_v14 main_v2 main_v15 (subf : (⟨S32x3x256x256, .f32⟩ : BufTy).Contents (Elt F) → (⟨S32x3x256x256, .f32⟩ : BufTy).Contents (Elt F) → (⟨S32x3x256x256, .f32⟩ : BufTy).Contents (Elt F)),
    binary main_v15 main_v4 main_v16 (subf : (⟨S32x3x256x256, .f32⟩ : BufTy).Contents (Elt F) → (⟨S32x3x256x256, .f32⟩ : BufTy).Contents (Elt F) → (⟨S32x3x256x256, .f32⟩ : BufTy).Contents (Elt F)),
    nullary main_cst_0 (constant S_ .f32 0x3F000000#32),
    unary main_cst_0 main_v17 (broadcastInDim S32x3x256x256 ![] bcast_S_S32x3x256x256 : (⟨S_, .f32⟩ : BufTy).Contents (Elt F) → (⟨S32x3x256x256, .f32⟩ : BufTy).Contents (Elt F)),
    binary main_v16 main_v17 main_v18 (mulf : (⟨S32x3x256x256, .f32⟩ : BufTy).Contents (Elt F) → (⟨S32x3x256x256, .f32⟩ : BufTy).Contents (Elt F) → (⟨S32x3x256x256, .f32⟩ : BufTy).Contents (Elt F)),
    binary main_v4 main_v8 main_v19 (addf : (⟨S32x3x256x256, .f32⟩ : BufTy).Contents (Elt F) → (⟨S32x3x256x256, .f32⟩ : BufTy).Contents (Elt F) → (⟨S32x3x256x256, .f32⟩ : BufTy).Contents (Elt F)),
    binary main_v19 main_v2 main_v20 (subf : (⟨S32x3x256x256, .f32⟩ : BufTy).Contents (Elt F) → (⟨S32x3x256x256, .f32⟩ : BufTy).Contents (Elt F) → (⟨S32x3x256x256, .f32⟩ : BufTy).Contents (Elt F)),
    binary main_v20 main_v6 main_v21 (subf : (⟨S32x3x256x256, .f32⟩ : BufTy).Contents (Elt F) → (⟨S32x3x256x256, .f32⟩ : BufTy).Contents (Elt F) → (⟨S32x3x256x256, .f32⟩ : BufTy).Contents (Elt F)),
    nullary main_cst_1 (constant S_ .f32 0x3F000000#32),
    unary main_cst_1 main_v22 (broadcastInDim S32x3x256x256 ![] bcast_S_S32x3x256x256 : (⟨S_, .f32⟩ : BufTy).Contents (Elt F) → (⟨S32x3x256x256, .f32⟩ : BufTy).Contents (Elt F)),
    binary main_v21 main_v22 main_v23 (mulf : (⟨S32x3x256x256, .f32⟩ : BufTy).Contents (Elt F) → (⟨S32x3x256x256, .f32⟩ : BufTy).Contents (Elt F) → (⟨S32x3x256x256, .f32⟩ : BufTy).Contents (Elt F)),
    binary main_v2 main_v8 main_v24 (addf : (⟨S32x3x256x256, .f32⟩ : BufTy).Contents (Elt F) → (⟨S32x3x256x256, .f32⟩ : BufTy).Contents (Elt F) → (⟨S32x3x256x256, .f32⟩ : BufTy).Contents (Elt F)),
    binary main_v24 main_v4 main_v25 (subf : (⟨S32x3x256x256, .f32⟩ : BufTy).Contents (Elt F) → (⟨S32x3x256x256, .f32⟩ : BufTy).Contents (Elt F) → (⟨S32x3x256x256, .f32⟩ : BufTy).Contents (Elt F)),
    binary main_v25 main_v6 main_v26 (subf : (⟨S32x3x256x256, .f32⟩ : BufTy).Contents (Elt F) → (⟨S32x3x256x256, .f32⟩ : BufTy).Contents (Elt F) → (⟨S32x3x256x256, .f32⟩ : BufTy).Contents (Elt F)),
    nullary main_cst_2 (constant S_ .f32 0x3F000000#32),
    unary main_cst_2 main_v27 (broadcastInDim S32x3x256x256 ![] bcast_S_S32x3x256x256 : (⟨S_, .f32⟩ : BufTy).Contents (Elt F) → (⟨S32x3x256x256, .f32⟩ : BufTy).Contents (Elt F)),
    binary main_v26 main_v27 main_v28 (mulf : (⟨S32x3x256x256, .f32⟩ : BufTy).Contents (Elt F) → (⟨S32x3x256x256, .f32⟩ : BufTy).Contents (Elt F) → (⟨S32x3x256x256, .f32⟩ : BufTy).Contents (Elt F)) ]

/-- The level-1 low band viewed as 2×2 cells, [32,3,128,2,128,2], and its four corners as arrays [32,3,128,128]. -/
abbrev S3 : List (HloOp τ sig (Elt F)) :=
  [ reshape main_v13 main_v29 rfl shapeCasts_S32x3x256x256_S32x3x128x2x128x2,
    unary main_v29 main_v30 ((extractStridedSlice S32x3x128x1x128x1 ![0, 0, 0, 0, 0, 0] · slices_S32x3x128x2x128x2_S32x3x128x1x128x1_0_0_0_0_0_0) : (⟨S32x3x128x2x128x2, .f32⟩ : BufTy).Contents (Elt F) → (⟨S32x3x128x1x128x1, .f32⟩ : BufTy).Contents (Elt F)),
    reshape main_v30 main_v31 rfl shapeCasts_S32x3x128x1x128x1_S32x3x128x128,
    unary main_v29 main_v32 ((extractStridedSlice S32x3x128x1x128x1 ![0, 0, 0, 0, 0, 1] · slices_S32x3x128x2x128x2_S32x3x128x1x128x1_0_0_0_0_0_1) : (⟨S32x3x128x2x128x2, .f32⟩ : BufTy).Contents (Elt F) → (⟨S32x3x128x1x128x1, .f32⟩ : BufTy).Contents (Elt F)),
    reshape main_v32 main_v33 rfl shapeCasts_S32x3x128x1x128x1_S32x3x128x128,
    unary main_v29 main_v34 ((extractStridedSlice S32x3x128x1x128x1 ![0, 0, 0, 1, 0, 0] · slices_S32x3x128x2x128x2_S32x3x128x1x128x1_0_0_0_1_0_0) : (⟨S32x3x128x2x128x2, .f32⟩ : BufTy).Contents (Elt F) → (⟨S32x3x128x1x128x1, .f32⟩ : BufTy).Contents (Elt F)),
    reshape main_v34 main_v35 rfl shapeCasts_S32x3x128x1x128x1_S32x3x128x128,
    unary main_v29 main_v36 ((extractStridedSlice S32x3x128x1x128x1 ![0, 0, 0, 1, 0, 1] · slices_S32x3x128x2x128x2_S32x3x128x1x128x1_0_0_0_1_0_1) : (⟨S32x3x128x2x128x2, .f32⟩ : BufTy).Contents (Elt F) → (⟨S32x3x128x1x128x1, .f32⟩ : BufTy).Contents (Elt F)),
    reshape main_v36 main_v37 rfl shapeCasts_S32x3x128x1x128x1_S32x3x128x128 ]

/-- The level-2 transform of those corners: its low band and its three high bands, each scaled by 1/2. -/
abbrev S4 : List (HloOp τ sig (Elt F)) :=
  [ binary main_v31 main_v33 main_v38 (addf : (⟨S32x3x128x128, .f32⟩ : BufTy).Contents (Elt F) → (⟨S32x3x128x128, .f32⟩ : BufTy).Contents (Elt F) → (⟨S32x3x128x128, .f32⟩ : BufTy).Contents (Elt F)),
    binary main_v38 main_v35 main_v39 (addf : (⟨S32x3x128x128, .f32⟩ : BufTy).Contents (Elt F) → (⟨S32x3x128x128, .f32⟩ : BufTy).Contents (Elt F) → (⟨S32x3x128x128, .f32⟩ : BufTy).Contents (Elt F)),
    binary main_v39 main_v37 main_v40 (addf : (⟨S32x3x128x128, .f32⟩ : BufTy).Contents (Elt F) → (⟨S32x3x128x128, .f32⟩ : BufTy).Contents (Elt F) → (⟨S32x3x128x128, .f32⟩ : BufTy).Contents (Elt F)),
    nullary main_cst_3 (constant S_ .f32 0x3F000000#32),
    unary main_cst_3 main_v41 (broadcastInDim S32x3x128x128 ![] bcast_S_S32x3x128x128 : (⟨S_, .f32⟩ : BufTy).Contents (Elt F) → (⟨S32x3x128x128, .f32⟩ : BufTy).Contents (Elt F)),
    binary main_v40 main_v41 main_v42 (mulf : (⟨S32x3x128x128, .f32⟩ : BufTy).Contents (Elt F) → (⟨S32x3x128x128, .f32⟩ : BufTy).Contents (Elt F) → (⟨S32x3x128x128, .f32⟩ : BufTy).Contents (Elt F)),
    binary main_v35 main_v37 main_v43 (addf : (⟨S32x3x128x128, .f32⟩ : BufTy).Contents (Elt F) → (⟨S32x3x128x128, .f32⟩ : BufTy).Contents (Elt F) → (⟨S32x3x128x128, .f32⟩ : BufTy).Contents (Elt F)),
    binary main_v43 main_v31 main_v44 (subf : (⟨S32x3x128x128, .f32⟩ : BufTy).Contents (Elt F) → (⟨S32x3x128x128, .f32⟩ : BufTy).Contents (Elt F) → (⟨S32x3x128x128, .f32⟩ : BufTy).Contents (Elt F)),
    binary main_v44 main_v33 main_v45 (subf : (⟨S32x3x128x128, .f32⟩ : BufTy).Contents (Elt F) → (⟨S32x3x128x128, .f32⟩ : BufTy).Contents (Elt F) → (⟨S32x3x128x128, .f32⟩ : BufTy).Contents (Elt F)),
    nullary main_cst_4 (constant S_ .f32 0x3F000000#32),
    unary main_cst_4 main_v46 (broadcastInDim S32x3x128x128 ![] bcast_S_S32x3x128x128 : (⟨S_, .f32⟩ : BufTy).Contents (Elt F) → (⟨S32x3x128x128, .f32⟩ : BufTy).Contents (Elt F)),
    binary main_v45 main_v46 main_v47 (mulf : (⟨S32x3x128x128, .f32⟩ : BufTy).Contents (Elt F) → (⟨S32x3x128x128, .f32⟩ : BufTy).Contents (Elt F) → (⟨S32x3x128x128, .f32⟩ : BufTy).Contents (Elt F)),
    binary main_v33 main_v37 main_v48 (addf : (⟨S32x3x128x128, .f32⟩ : BufTy).Contents (Elt F) → (⟨S32x3x128x128, .f32⟩ : BufTy).Contents (Elt F) → (⟨S32x3x128x128, .f32⟩ : BufTy).Contents (Elt F)),
    binary main_v48 main_v31 main_v49 (subf : (⟨S32x3x128x128, .f32⟩ : BufTy).Contents (Elt F) → (⟨S32x3x128x128, .f32⟩ : BufTy).Contents (Elt F) → (⟨S32x3x128x128, .f32⟩ : BufTy).Contents (Elt F)),
    binary main_v49 main_v35 main_v50 (subf : (⟨S32x3x128x128, .f32⟩ : BufTy).Contents (Elt F) → (⟨S32x3x128x128, .f32⟩ : BufTy).Contents (Elt F) → (⟨S32x3x128x128, .f32⟩ : BufTy).Contents (Elt F)),
    nullary main_cst_5 (constant S_ .f32 0x3F000000#32),
    unary main_cst_5 main_v51 (broadcastInDim S32x3x128x128 ![] bcast_S_S32x3x128x128 : (⟨S_, .f32⟩ : BufTy).Contents (Elt F) → (⟨S32x3x128x128, .f32⟩ : BufTy).Contents (Elt F)),
    binary main_v50 main_v51 main_v52 (mulf : (⟨S32x3x128x128, .f32⟩ : BufTy).Contents (Elt F) → (⟨S32x3x128x128, .f32⟩ : BufTy).Contents (Elt F) → (⟨S32x3x128x128, .f32⟩ : BufTy).Contents (Elt F)),
    binary main_v31 main_v37 main_v53 (addf : (⟨S32x3x128x128, .f32⟩ : BufTy).Contents (Elt F) → (⟨S32x3x128x128, .f32⟩ : BufTy).Contents (Elt F) → (⟨S32x3x128x128, .f32⟩ : BufTy).Contents (Elt F)),
    binary main_v53 main_v33 main_v54 (subf : (⟨S32x3x128x128, .f32⟩ : BufTy).Contents (Elt F) → (⟨S32x3x128x128, .f32⟩ : BufTy).Contents (Elt F) → (⟨S32x3x128x128, .f32⟩ : BufTy).Contents (Elt F)),
    binary main_v54 main_v35 main_v55 (subf : (⟨S32x3x128x128, .f32⟩ : BufTy).Contents (Elt F) → (⟨S32x3x128x128, .f32⟩ : BufTy).Contents (Elt F) → (⟨S32x3x128x128, .f32⟩ : BufTy).Contents (Elt F)),
    nullary main_cst_6 (constant S_ .f32 0x3F000000#32),
    unary main_cst_6 main_v56 (broadcastInDim S32x3x128x128 ![] bcast_S_S32x3x128x128 : (⟨S_, .f32⟩ : BufTy).Contents (Elt F) → (⟨S32x3x128x128, .f32⟩ : BufTy).Contents (Elt F)),
    binary main_v55 main_v56 main_v57 (mulf : (⟨S32x3x128x128, .f32⟩ : BufTy).Contents (Elt F) → (⟨S32x3x128x128, .f32⟩ : BufTy).Contents (Elt F) → (⟨S32x3x128x128, .f32⟩ : BufTy).Contents (Elt F)) ]

/-- The level-2 inverse, corner by corner: (LL−LH−HL+HH)/2, (LL−LH+HL−HH)/2, (LL+LH−HL−HH)/2, (LL+LH+HL+HH)/2. -/
abbrev S5 : List (HloOp τ sig (Elt F)) :=
  [ binary main_v42 main_v47 main_v58 (subf : (⟨S32x3x128x128, .f32⟩ : BufTy).Contents (Elt F) → (⟨S32x3x128x128, .f32⟩ : BufTy).Contents (Elt F) → (⟨S32x3x128x128, .f32⟩ : BufTy).Contents (Elt F)),
    binary main_v58 main_v52 main_v59 (subf : (⟨S32x3x128x128, .f32⟩ : BufTy).Contents (Elt F) → (⟨S32x3x128x128, .f32⟩ : BufTy).Contents (Elt F) → (⟨S32x3x128x128, .f32⟩ : BufTy).Contents (Elt F)),
    binary main_v59 main_v57 main_v60 (addf : (⟨S32x3x128x128, .f32⟩ : BufTy).Contents (Elt F) → (⟨S32x3x128x128, .f32⟩ : BufTy).Contents (Elt F) → (⟨S32x3x128x128, .f32⟩ : BufTy).Contents (Elt F)),
    nullary main_cst_7 (constant S_ .f32 0x3F000000#32),
    unary main_cst_7 main_v61 (broadcastInDim S32x3x128x128 ![] bcast_S_S32x3x128x128 : (⟨S_, .f32⟩ : BufTy).Contents (Elt F) → (⟨S32x3x128x128, .f32⟩ : BufTy).Contents (Elt F)),
    binary main_v60 main_v61 main_v62 (mulf : (⟨S32x3x128x128, .f32⟩ : BufTy).Contents (Elt F) → (⟨S32x3x128x128, .f32⟩ : BufTy).Contents (Elt F) → (⟨S32x3x128x128, .f32⟩ : BufTy).Contents (Elt F)),
    binary main_v42 main_v47 main_v63 (subf : (⟨S32x3x128x128, .f32⟩ : BufTy).Contents (Elt F) → (⟨S32x3x128x128, .f32⟩ : BufTy).Contents (Elt F) → (⟨S32x3x128x128, .f32⟩ : BufTy).Contents (Elt F)),
    binary main_v63 main_v52 main_v64 (addf : (⟨S32x3x128x128, .f32⟩ : BufTy).Contents (Elt F) → (⟨S32x3x128x128, .f32⟩ : BufTy).Contents (Elt F) → (⟨S32x3x128x128, .f32⟩ : BufTy).Contents (Elt F)),
    binary main_v64 main_v57 main_v65 (subf : (⟨S32x3x128x128, .f32⟩ : BufTy).Contents (Elt F) → (⟨S32x3x128x128, .f32⟩ : BufTy).Contents (Elt F) → (⟨S32x3x128x128, .f32⟩ : BufTy).Contents (Elt F)),
    nullary main_cst_8 (constant S_ .f32 0x3F000000#32),
    unary main_cst_8 main_v66 (broadcastInDim S32x3x128x128 ![] bcast_S_S32x3x128x128 : (⟨S_, .f32⟩ : BufTy).Contents (Elt F) → (⟨S32x3x128x128, .f32⟩ : BufTy).Contents (Elt F)),
    binary main_v65 main_v66 main_v67 (mulf : (⟨S32x3x128x128, .f32⟩ : BufTy).Contents (Elt F) → (⟨S32x3x128x128, .f32⟩ : BufTy).Contents (Elt F) → (⟨S32x3x128x128, .f32⟩ : BufTy).Contents (Elt F)),
    binary main_v42 main_v47 main_v68 (addf : (⟨S32x3x128x128, .f32⟩ : BufTy).Contents (Elt F) → (⟨S32x3x128x128, .f32⟩ : BufTy).Contents (Elt F) → (⟨S32x3x128x128, .f32⟩ : BufTy).Contents (Elt F)),
    binary main_v68 main_v52 main_v69 (subf : (⟨S32x3x128x128, .f32⟩ : BufTy).Contents (Elt F) → (⟨S32x3x128x128, .f32⟩ : BufTy).Contents (Elt F) → (⟨S32x3x128x128, .f32⟩ : BufTy).Contents (Elt F)),
    binary main_v69 main_v57 main_v70 (subf : (⟨S32x3x128x128, .f32⟩ : BufTy).Contents (Elt F) → (⟨S32x3x128x128, .f32⟩ : BufTy).Contents (Elt F) → (⟨S32x3x128x128, .f32⟩ : BufTy).Contents (Elt F)),
    nullary main_cst_9 (constant S_ .f32 0x3F000000#32),
    unary main_cst_9 main_v71 (broadcastInDim S32x3x128x128 ![] bcast_S_S32x3x128x128 : (⟨S_, .f32⟩ : BufTy).Contents (Elt F) → (⟨S32x3x128x128, .f32⟩ : BufTy).Contents (Elt F)),
    binary main_v70 main_v71 main_v72 (mulf : (⟨S32x3x128x128, .f32⟩ : BufTy).Contents (Elt F) → (⟨S32x3x128x128, .f32⟩ : BufTy).Contents (Elt F) → (⟨S32x3x128x128, .f32⟩ : BufTy).Contents (Elt F)),
    binary main_v42 main_v47 main_v73 (addf : (⟨S32x3x128x128, .f32⟩ : BufTy).Contents (Elt F) → (⟨S32x3x128x128, .f32⟩ : BufTy).Contents (Elt F) → (⟨S32x3x128x128, .f32⟩ : BufTy).Contents (Elt F)),
    binary main_v73 main_v52 main_v74 (addf : (⟨S32x3x128x128, .f32⟩ : BufTy).Contents (Elt F) → (⟨S32x3x128x128, .f32⟩ : BufTy).Contents (Elt F) → (⟨S32x3x128x128, .f32⟩ : BufTy).Contents (Elt F)),
    binary main_v74 main_v57 main_v75 (addf : (⟨S32x3x128x128, .f32⟩ : BufTy).Contents (Elt F) → (⟨S32x3x128x128, .f32⟩ : BufTy).Contents (Elt F) → (⟨S32x3x128x128, .f32⟩ : BufTy).Contents (Elt F)),
    nullary main_cst_10 (constant S_ .f32 0x3F000000#32),
    unary main_cst_10 main_v76 (broadcastInDim S32x3x128x128 ![] bcast_S_S32x3x128x128 : (⟨S_, .f32⟩ : BufTy).Contents (Elt F) → (⟨S32x3x128x128, .f32⟩ : BufTy).Contents (Elt F)),
    binary main_v75 main_v76 main_v77 (mulf : (⟨S32x3x128x128, .f32⟩ : BufTy).Contents (Elt F) → (⟨S32x3x128x128, .f32⟩ : BufTy).Contents (Elt F) → (⟨S32x3x128x128, .f32⟩ : BufTy).Contents (Elt F)) ]

/-- The four level-2 corners interleaved back into 2×2 cells (two concatenations along a new unit axis, one along the row-parity axis) and re-indexed to [32,3,256,256]: the reconstructed level-1 low band. -/
abbrev S6 : List (HloOp τ sig (Elt F)) :=
  [ unary main_v62 main_v78 (broadcastInDim S32x3x128x128x1 ![0, 1, 2, 3] bcast_S32x3x128x128_S32x3x128x128x1_0_1_2_3 : (⟨S32x3x128x128, .f32⟩ : BufTy).Contents (Elt F) → (⟨S32x3x128x128x1, .f32⟩ : BufTy).Contents (Elt F)),
    unary main_v67 main_v79 (broadcastInDim S32x3x128x128x1 ![0, 1, 2, 3] bcast_S32x3x128x128_S32x3x128x128x1_0_1_2_3 : (⟨S32x3x128x128, .f32⟩ : BufTy).Contents (Elt F) → (⟨S32x3x128x128x1, .f32⟩ : BufTy).Contents (Elt F)),
    binary main_v78 main_v79 main_v80 ((fun a b => concatenate S32x3x128x128x2 4 [⟨S32x3x128x128x1, a⟩, ⟨S32x3x128x128x1, b⟩] concatenates_S32x3x128x128x1_S32x3x128x128x1_S32x3x128x128x2_d4) : (⟨S32x3x128x128x1, .f32⟩ : BufTy).Contents (Elt F) → (⟨S32x3x128x128x1, .f32⟩ : BufTy).Contents (Elt F) → (⟨S32x3x128x128x2, .f32⟩ : BufTy).Contents (Elt F)),
    unary main_v72 main_v81 (broadcastInDim S32x3x128x128x1 ![0, 1, 2, 3] bcast_S32x3x128x128_S32x3x128x128x1_0_1_2_3 : (⟨S32x3x128x128, .f32⟩ : BufTy).Contents (Elt F) → (⟨S32x3x128x128x1, .f32⟩ : BufTy).Contents (Elt F)),
    unary main_v77 main_v82 (broadcastInDim S32x3x128x128x1 ![0, 1, 2, 3] bcast_S32x3x128x128_S32x3x128x128x1_0_1_2_3 : (⟨S32x3x128x128, .f32⟩ : BufTy).Contents (Elt F) → (⟨S32x3x128x128x1, .f32⟩ : BufTy).Contents (Elt F)),
    binary main_v81 main_v82 main_v83 ((fun a b => concatenate S32x3x128x128x2 4 [⟨S32x3x128x128x1, a⟩, ⟨S32x3x128x128x1, b⟩] concatenates_S32x3x128x128x1_S32x3x128x128x1_S32x3x128x128x2_d4) : (⟨S32x3x128x128x1, .f32⟩ : BufTy).Contents (Elt F) → (⟨S32x3x128x128x1, .f32⟩ : BufTy).Contents (Elt F) → (⟨S32x3x128x128x2, .f32⟩ : BufTy).Contents (Elt F)),
    unary main_v80 main_v84 (broadcastInDim S32x3x128x1x128x2 ![0, 1, 2, 4, 5] bcast_S32x3x128x128x2_S32x3x128x1x128x2_0_1_2_4_5 : (⟨S32x3x128x128x2, .f32⟩ : BufTy).Contents (Elt F) → (⟨S32x3x128x1x128x2, .f32⟩ : BufTy).Contents (Elt F)),
    unary main_v83 main_v85 (broadcastInDim S32x3x128x1x128x2 ![0, 1, 2, 4, 5] bcast_S32x3x128x128x2_S32x3x128x1x128x2_0_1_2_4_5 : (⟨S32x3x128x128x2, .f32⟩ : BufTy).Contents (Elt F) → (⟨S32x3x128x1x128x2, .f32⟩ : BufTy).Contents (Elt F)),
    binary main_v84 main_v85 main_v86 ((fun a b => concatenate S32x3x128x2x128x2 3 [⟨S32x3x128x1x128x2, a⟩, ⟨S32x3x128x1x128x2, b⟩] concatenates_S32x3x128x1x128x2_S32x3x128x1x128x2_S32x3x128x2x128x2_d3) : (⟨S32x3x128x1x128x2, .f32⟩ : BufTy).Contents (Elt F) → (⟨S32x3x128x1x128x2, .f32⟩ : BufTy).Contents (Elt F) → (⟨S32x3x128x2x128x2, .f32⟩ : BufTy).Contents (Elt F)),
    reshape main_v86 main_v87 rfl shapeCasts_S32x3x128x2x128x2_S32x3x256x256 ]

/-- The level-1 inverse, corner by corner, from the reconstructed low band and the three level-1 high bands. -/
abbrev S7 : List (HloOp τ sig (Elt F)) :=
  [ binary main_v87 main_v18 main_v88 (subf : (⟨S32x3x256x256, .f32⟩ : BufTy).Contents (Elt F) → (⟨S32x3x256x256, .f32⟩ : BufTy).Contents (Elt F) → (⟨S32x3x256x256, .f32⟩ : BufTy).Contents (Elt F)),
    binary main_v88 main_v23 main_v89 (subf : (⟨S32x3x256x256, .f32⟩ : BufTy).Contents (Elt F) → (⟨S32x3x256x256, .f32⟩ : BufTy).Contents (Elt F) → (⟨S32x3x256x256, .f32⟩ : BufTy).Contents (Elt F)),
    binary main_v89 main_v28 main_v90 (addf : (⟨S32x3x256x256, .f32⟩ : BufTy).Contents (Elt F) → (⟨S32x3x256x256, .f32⟩ : BufTy).Contents (Elt F) → (⟨S32x3x256x256, .f32⟩ : BufTy).Contents (Elt F)),
    nullary main_cst_11 (constant S_ .f32 0x3F000000#32),
    unary main_cst_11 main_v91 (broadcastInDim S32x3x256x256 ![] bcast_S_S32x3x256x256 : (⟨S_, .f32⟩ : BufTy).Contents (Elt F) → (⟨S32x3x256x256, .f32⟩ : BufTy).Contents (Elt F)),
    binary main_v90 main_v91 main_v92 (mulf : (⟨S32x3x256x256, .f32⟩ : BufTy).Contents (Elt F) → (⟨S32x3x256x256, .f32⟩ : BufTy).Contents (Elt F) → (⟨S32x3x256x256, .f32⟩ : BufTy).Contents (Elt F)),
    binary main_v87 main_v18 main_v93 (subf : (⟨S32x3x256x256, .f32⟩ : BufTy).Contents (Elt F) → (⟨S32x3x256x256, .f32⟩ : BufTy).Contents (Elt F) → (⟨S32x3x256x256, .f32⟩ : BufTy).Contents (Elt F)),
    binary main_v93 main_v23 main_v94 (addf : (⟨S32x3x256x256, .f32⟩ : BufTy).Contents (Elt F) → (⟨S32x3x256x256, .f32⟩ : BufTy).Contents (Elt F) → (⟨S32x3x256x256, .f32⟩ : BufTy).Contents (Elt F)),
    binary main_v94 main_v28 main_v95 (subf : (⟨S32x3x256x256, .f32⟩ : BufTy).Contents (Elt F) → (⟨S32x3x256x256, .f32⟩ : BufTy).Contents (Elt F) → (⟨S32x3x256x256, .f32⟩ : BufTy).Contents (Elt F)),
    nullary main_cst_12 (constant S_ .f32 0x3F000000#32),
    unary main_cst_12 main_v96 (broadcastInDim S32x3x256x256 ![] bcast_S_S32x3x256x256 : (⟨S_, .f32⟩ : BufTy).Contents (Elt F) → (⟨S32x3x256x256, .f32⟩ : BufTy).Contents (Elt F)),
    binary main_v95 main_v96 main_v97 (mulf : (⟨S32x3x256x256, .f32⟩ : BufTy).Contents (Elt F) → (⟨S32x3x256x256, .f32⟩ : BufTy).Contents (Elt F) → (⟨S32x3x256x256, .f32⟩ : BufTy).Contents (Elt F)),
    binary main_v87 main_v18 main_v98 (addf : (⟨S32x3x256x256, .f32⟩ : BufTy).Contents (Elt F) → (⟨S32x3x256x256, .f32⟩ : BufTy).Contents (Elt F) → (⟨S32x3x256x256, .f32⟩ : BufTy).Contents (Elt F)),
    binary main_v98 main_v23 main_v99 (subf : (⟨S32x3x256x256, .f32⟩ : BufTy).Contents (Elt F) → (⟨S32x3x256x256, .f32⟩ : BufTy).Contents (Elt F) → (⟨S32x3x256x256, .f32⟩ : BufTy).Contents (Elt F)),
    binary main_v99 main_v28 main_v100 (subf : (⟨S32x3x256x256, .f32⟩ : BufTy).Contents (Elt F) → (⟨S32x3x256x256, .f32⟩ : BufTy).Contents (Elt F) → (⟨S32x3x256x256, .f32⟩ : BufTy).Contents (Elt F)),
    nullary main_cst_13 (constant S_ .f32 0x3F000000#32),
    unary main_cst_13 main_v101 (broadcastInDim S32x3x256x256 ![] bcast_S_S32x3x256x256 : (⟨S_, .f32⟩ : BufTy).Contents (Elt F) → (⟨S32x3x256x256, .f32⟩ : BufTy).Contents (Elt F)),
    binary main_v100 main_v101 main_v102 (mulf : (⟨S32x3x256x256, .f32⟩ : BufTy).Contents (Elt F) → (⟨S32x3x256x256, .f32⟩ : BufTy).Contents (Elt F) → (⟨S32x3x256x256, .f32⟩ : BufTy).Contents (Elt F)),
    binary main_v87 main_v18 main_v103 (addf : (⟨S32x3x256x256, .f32⟩ : BufTy).Contents (Elt F) → (⟨S32x3x256x256, .f32⟩ : BufTy).Contents (Elt F) → (⟨S32x3x256x256, .f32⟩ : BufTy).Contents (Elt F)),
    binary main_v103 main_v23 main_v104 (addf : (⟨S32x3x256x256, .f32⟩ : BufTy).Contents (Elt F) → (⟨S32x3x256x256, .f32⟩ : BufTy).Contents (Elt F) → (⟨S32x3x256x256, .f32⟩ : BufTy).Contents (Elt F)),
    binary main_v104 main_v28 main_v105 (addf : (⟨S32x3x256x256, .f32⟩ : BufTy).Contents (Elt F) → (⟨S32x3x256x256, .f32⟩ : BufTy).Contents (Elt F) → (⟨S32x3x256x256, .f32⟩ : BufTy).Contents (Elt F)),
    nullary main_cst_14 (constant S_ .f32 0x3F000000#32),
    unary main_cst_14 main_v106 (broadcastInDim S32x3x256x256 ![] bcast_S_S32x3x256x256 : (⟨S_, .f32⟩ : BufTy).Contents (Elt F) → (⟨S32x3x256x256, .f32⟩ : BufTy).Contents (Elt F)),
    binary main_v105 main_v106 main_v107 (mulf : (⟨S32x3x256x256, .f32⟩ : BufTy).Contents (Elt F) → (⟨S32x3x256x256, .f32⟩ : BufTy).Contents (Elt F) → (⟨S32x3x256x256, .f32⟩ : BufTy).Contents (Elt F)) ]

/-- The four level-1 corners interleaved back into 2×2 cells and re-indexed to [32,3,512,512]: the result. -/
abbrev S8 : List (HloOp τ sig (Elt F)) :=
  [ unary main_v92 main_v108 (broadcastInDim S32x3x256x256x1 ![0, 1, 2, 3] bcast_S32x3x256x256_S32x3x256x256x1_0_1_2_3 : (⟨S32x3x256x256, .f32⟩ : BufTy).Contents (Elt F) → (⟨S32x3x256x256x1, .f32⟩ : BufTy).Contents (Elt F)),
    unary main_v97 main_v109 (broadcastInDim S32x3x256x256x1 ![0, 1, 2, 3] bcast_S32x3x256x256_S32x3x256x256x1_0_1_2_3 : (⟨S32x3x256x256, .f32⟩ : BufTy).Contents (Elt F) → (⟨S32x3x256x256x1, .f32⟩ : BufTy).Contents (Elt F)),
    binary main_v108 main_v109 main_v110 ((fun a b => concatenate S32x3x256x256x2 4 [⟨S32x3x256x256x1, a⟩, ⟨S32x3x256x256x1, b⟩] concatenates_S32x3x256x256x1_S32x3x256x256x1_S32x3x256x256x2_d4) : (⟨S32x3x256x256x1, .f32⟩ : BufTy).Contents (Elt F) → (⟨S32x3x256x256x1, .f32⟩ : BufTy).Contents (Elt F) → (⟨S32x3x256x256x2, .f32⟩ : BufTy).Contents (Elt F)),
    unary main_v102 main_v111 (broadcastInDim S32x3x256x256x1 ![0, 1, 2, 3] bcast_S32x3x256x256_S32x3x256x256x1_0_1_2_3 : (⟨S32x3x256x256, .f32⟩ : BufTy).Contents (Elt F) → (⟨S32x3x256x256x1, .f32⟩ : BufTy).Contents (Elt F)),
    unary main_v107 main_v112 (broadcastInDim S32x3x256x256x1 ![0, 1, 2, 3] bcast_S32x3x256x256_S32x3x256x256x1_0_1_2_3 : (⟨S32x3x256x256, .f32⟩ : BufTy).Contents (Elt F) → (⟨S32x3x256x256x1, .f32⟩ : BufTy).Contents (Elt F)),
    binary main_v111 main_v112 main_v113 ((fun a b => concatenate S32x3x256x256x2 4 [⟨S32x3x256x256x1, a⟩, ⟨S32x3x256x256x1, b⟩] concatenates_S32x3x256x256x1_S32x3x256x256x1_S32x3x256x256x2_d4) : (⟨S32x3x256x256x1, .f32⟩ : BufTy).Contents (Elt F) → (⟨S32x3x256x256x1, .f32⟩ : BufTy).Contents (Elt F) → (⟨S32x3x256x256x2, .f32⟩ : BufTy).Contents (Elt F)),
    unary main_v110 main_v114 (broadcastInDim S32x3x256x1x256x2 ![0, 1, 2, 4, 5] bcast_S32x3x256x256x2_S32x3x256x1x256x2_0_1_2_4_5 : (⟨S32x3x256x256x2, .f32⟩ : BufTy).Contents (Elt F) → (⟨S32x3x256x1x256x2, .f32⟩ : BufTy).Contents (Elt F)),
    unary main_v113 main_v115 (broadcastInDim S32x3x256x1x256x2 ![0, 1, 2, 4, 5] bcast_S32x3x256x256x2_S32x3x256x1x256x2_0_1_2_4_5 : (⟨S32x3x256x256x2, .f32⟩ : BufTy).Contents (Elt F) → (⟨S32x3x256x1x256x2, .f32⟩ : BufTy).Contents (Elt F)),
    binary main_v114 main_v115 main_v116 ((fun a b => concatenate S32x3x256x2x256x2 3 [⟨S32x3x256x1x256x2, a⟩, ⟨S32x3x256x1x256x2, b⟩] concatenates_S32x3x256x1x256x2_S32x3x256x1x256x2_S32x3x256x2x256x2_d3) : (⟨S32x3x256x1x256x2, .f32⟩ : BufTy).Contents (Elt F) → (⟨S32x3x256x1x256x2, .f32⟩ : BufTy).Contents (Elt F) → (⟨S32x3x256x2x256x2, .f32⟩ : BufTy).Contents (Elt F)),
    reshape main_v116 main_v117 rfl shapeCasts_S32x3x256x2x256x2_S32x3x512x512 ]

/-- @main's 134 operations, in order: the eight stretches one after the other. -/
abbrev ops : List (HloOp τ sig (Elt F)) := S1 ++ S2 ++ S3 ++ S4 ++ S5 ++ S6 ++ S7 ++ S8

set_option maxRecDepth 8192 in
set_option maxHeartbeats 4000000 in
/-- @main is the line of these operations. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-! ### Every operation touches TensorCore buffers only and determines its result -/

theorem sub_S1 : (S1 : List (HloOp τ sig (Elt F))).Forall fun op => op.bufs ⊆ tcRefs τ sig :=
  ⟨reshape_bufs_sub .., unary_bufs_sub .., reshape_bufs_sub .., unary_bufs_sub .., reshape_bufs_sub .., unary_bufs_sub .., reshape_bufs_sub .., unary_bufs_sub .., reshape_bufs_sub ..⟩
theorem sub_S2 : (S2 : List (HloOp τ sig (Elt F))).Forall fun op => op.bufs ⊆ tcRefs τ sig :=
  ⟨binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub ..⟩
theorem sub_S3 : (S3 : List (HloOp τ sig (Elt F))).Forall fun op => op.bufs ⊆ tcRefs τ sig :=
  ⟨reshape_bufs_sub .., unary_bufs_sub .., reshape_bufs_sub .., unary_bufs_sub .., reshape_bufs_sub .., unary_bufs_sub .., reshape_bufs_sub .., unary_bufs_sub .., reshape_bufs_sub ..⟩
theorem sub_S4 : (S4 : List (HloOp τ sig (Elt F))).Forall fun op => op.bufs ⊆ tcRefs τ sig :=
  ⟨binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub ..⟩
theorem sub_S5 : (S5 : List (HloOp τ sig (Elt F))).Forall fun op => op.bufs ⊆ tcRefs τ sig :=
  ⟨binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub ..⟩
theorem sub_S6 : (S6 : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., unary_bufs_sub .., binary_bufs_sub .., reshape_bufs_sub ..⟩
theorem sub_S7 : (S7 : List (HloOp τ sig (Elt F))).Forall fun op => op.bufs ⊆ tcRefs τ sig :=
  ⟨binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub ..⟩
theorem sub_S8 : (S8 : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., unary_bufs_sub .., binary_bufs_sub .., reshape_bufs_sub ..⟩

theorem ops_sub : (ops : List (HloOp τ sig (Elt F))).Forall fun op => op.bufs ⊆ tcRefs τ sig := by
  show (S1 ++ S2 ++ S3 ++ S4 ++ S5 ++ S6 ++ S7 ++ S8 : List (HloOp τ sig (Elt F))).Forall _
  simp only [List.forall_append]
  exact ⟨⟨⟨⟨⟨⟨⟨sub_S1, sub_S2⟩, sub_S3⟩, sub_S4⟩, sub_S5⟩, sub_S6⟩, sub_S7⟩, sub_S8⟩

theorem fresh_S1 : ∀ op ∈ (S1 : List (HloOp τ sig (Elt F))), op.fresh = ∅ := by
  intro _ h; (repeat (cases h with | head => rfl | tail _ h => ?_)); exact nomatch h
theorem fresh_S2 : ∀ op ∈ (S2 : List (HloOp τ sig (Elt F))), op.fresh = ∅ := by
  intro _ h; (repeat (cases h with | head => rfl | tail _ h => ?_)); exact nomatch h
theorem fresh_S3 : ∀ op ∈ (S3 : List (HloOp τ sig (Elt F))), op.fresh = ∅ := by
  intro _ h; (repeat (cases h with | head => rfl | tail _ h => ?_)); exact nomatch h
theorem fresh_S4 : ∀ op ∈ (S4 : List (HloOp τ sig (Elt F))), op.fresh = ∅ := by
  intro _ h; (repeat (cases h with | head => rfl | tail _ h => ?_)); exact nomatch h
theorem fresh_S5 : ∀ op ∈ (S5 : List (HloOp τ sig (Elt F))), op.fresh = ∅ := by
  intro _ h; (repeat (cases h with | head => rfl | tail _ h => ?_)); exact nomatch h
theorem fresh_S6 : ∀ op ∈ (S6 : List (HloOp τ sig (Elt F))), op.fresh = ∅ := by
  intro _ h; (repeat (cases h with | head => rfl | tail _ h => ?_)); exact nomatch h
theorem fresh_S7 : ∀ op ∈ (S7 : List (HloOp τ sig (Elt F))), op.fresh = ∅ := by
  intro _ h; (repeat (cases h with | head => rfl | tail _ h => ?_)); exact nomatch h
theorem fresh_S8 : ∀ op ∈ (S8 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  rcases List.mem_append.mp h with h | h
  · rcases List.mem_append.mp h with h | h
    · rcases List.mem_append.mp h with h | h
      · rcases List.mem_append.mp h with h | h
        · rcases List.mem_append.mp h with h | h
          · rcases List.mem_append.mp h with h | h
            · rcases List.mem_append.mp h with h | h
              · exact fresh_S1 op h
              · exact fresh_S2 op h
            · exact fresh_S3 op h
          · exact fresh_S4 op h
        · exact fresh_S5 op h
      · exact fresh_S6 op h
    · exact fresh_S7 op h
  · exact fresh_S8 op h

/-! ## The named terms -/

set_option maxRecDepth 8192 in
/-- x as 2×2 cells: [32,3,256,2,256,2]. -/
def res_main_v0 (V0 : Valuation τ sig (Elt F)) : (Proc.devRef .tc main_v0 : DevRef τ sig).ty.Contents (Elt F) :=
  shapeCast _ (V0 (Proc.devRef .tc main_arg0)) shapeCasts_S32x3x512x512_S32x3x256x2x256x2

set_option maxRecDepth 8192 in
/-- Corner a = x[2i,2j] of every cell. -/
def res_main_v2 (V0 : Valuation τ sig (Elt F)) : (Proc.devRef .tc main_v2 : DevRef τ sig).ty.Contents (Elt F) :=
  shapeCast _ (extractStridedSlice S32x3x256x1x256x1 ![0, 0, 0, 0, 0, 0] (res_main_v0 V0) slices_S32x3x256x2x256x2_S32x3x256x1x256x1_0_0_0_0_0_0) shapeCasts_S32x3x256x1x256x1_S32x3x256x256

set_option maxRecDepth 8192 in
/-- Corner b = x[2i,2j+1] of every cell. -/
def res_main_v4 (V0 : Valuation τ sig (Elt F)) : (Proc.devRef .tc main_v4 : DevRef τ sig).ty.Contents (Elt F) :=
  shapeCast _ (extractStridedSlice S32x3x256x1x256x1 ![0, 0, 0, 0, 0, 1] (res_main_v0 V0) slices_S32x3x256x2x256x2_S32x3x256x1x256x1_0_0_0_0_0_1) shapeCasts_S32x3x256x1x256x1_S32x3x256x256

set_option maxRecDepth 8192 in
/-- Corner c = x[2i+1,2j] of every cell. -/
def res_main_v6 (V0 : Valuation τ sig (Elt F)) : (Proc.devRef .tc main_v6 : DevRef τ sig).ty.Contents (Elt F) :=
  shapeCast _ (extractStridedSlice S32x3x256x1x256x1 ![0, 0, 0, 1, 0, 0] (res_main_v0 V0) slices_S32x3x256x2x256x2_S32x3x256x1x256x1_0_0_0_1_0_0) shapeCasts_S32x3x256x1x256x1_S32x3x256x256

set_option maxRecDepth 8192 in
/-- Corner d = x[2i+1,2j+1] of every cell. -/
def res_main_v8 (V0 : Valuation τ sig (Elt F)) : (Proc.devRef .tc main_v8 : DevRef τ sig).ty.Contents (Elt F) :=
  shapeCast _ (extractStridedSlice S32x3x256x1x256x1 ![0, 0, 0, 1, 0, 1] (res_main_v0 V0) slices_S32x3x256x2x256x2_S32x3x256x1x256x1_0_0_0_1_0_1) shapeCasts_S32x3x256x1x256x1_S32x3x256x256

set_option maxRecDepth 8192 in
/-- Level-1 high band (c + d − a − b)/2. -/
def res_main_v18 (V0 : Valuation τ sig (Elt F)) : (Proc.devRef .tc main_v18 : DevRef τ sig).ty.Contents (Elt F) :=
  mulf (subf (subf (addf (res_main_v6 V0) (res_main_v8 V0)) (res_main_v2 V0)) (res_main_v4 V0)) (broadcastInDim S32x3x256x256 ![] bcast_S_S32x3x256x256 (constant S_ .f32 0x3F000000#32))

set_option maxRecDepth 8192 in
/-- Level-1 high band (b + d − a − c)/2. -/
def res_main_v23 (V0 : Valuation τ sig (Elt F)) : (Proc.devRef .tc main_v23 : DevRef τ sig).ty.Contents (Elt F) :=
  mulf (subf (subf (addf (res_main_v4 V0) (res_main_v8 V0)) (res_main_v2 V0)) (res_main_v6 V0)) (broadcastInDim S32x3x256x256 ![] bcast_S_S32x3x256x256 (constant S_ .f32 0x3F000000#32))

set_option maxRecDepth 8192 in
/-- Level-1 high band (a + d − b − c)/2. -/
def res_main_v28 (V0 : Valuation τ sig (Elt F)) : (Proc.devRef .tc main_v28 : DevRef τ sig).ty.Contents (Elt F) :=
  mulf (subf (subf (addf (res_main_v2 V0) (res_main_v8 V0)) (res_main_v4 V0)) (res_main_v6 V0)) (broadcastInDim S32x3x256x256 ![] bcast_S_S32x3x256x256 (constant S_ .f32 0x3F000000#32))

set_option maxRecDepth 8192 in
/-- Level-1 low band (a + b + c + d)/2, as 2×2 cells: [32,3,128,2,128,2]. -/
def res_main_v29 (V0 : Valuation τ sig (Elt F)) : (Proc.devRef .tc main_v29 : DevRef τ sig).ty.Contents (Elt F) :=
  shapeCast _ (mulf (addf (addf (addf (res_main_v2 V0) (res_main_v4 V0)) (res_main_v6 V0)) (res_main_v8 V0)) (broadcastInDim S32x3x256x256 ![] bcast_S_S32x3x256x256 (constant S_ .f32 0x3F000000#32))) shapeCasts_S32x3x256x256_S32x3x128x2x128x2

set_option maxRecDepth 8192 in
/-- Corner a of every cell of the level-1 low band. -/
def res_main_v31 (V0 : Valuation τ sig (Elt F)) : (Proc.devRef .tc main_v31 : DevRef τ sig).ty.Contents (Elt F) :=
  shapeCast _ (extractStridedSlice S32x3x128x1x128x1 ![0, 0, 0, 0, 0, 0] (res_main_v29 V0) slices_S32x3x128x2x128x2_S32x3x128x1x128x1_0_0_0_0_0_0) shapeCasts_S32x3x128x1x128x1_S32x3x128x128

set_option maxRecDepth 8192 in
/-- Corner b of every cell of the level-1 low band. -/
def res_main_v33 (V0 : Valuation τ sig (Elt F)) : (Proc.devRef .tc main_v33 : DevRef τ sig).ty.Contents (Elt F) :=
  shapeCast _ (extractStridedSlice S32x3x128x1x128x1 ![0, 0, 0, 0, 0, 1] (res_main_v29 V0) slices_S32x3x128x2x128x2_S32x3x128x1x128x1_0_0_0_0_0_1) shapeCasts_S32x3x128x1x128x1_S32x3x128x128

set_option maxRecDepth 8192 in
/-- Corner c of every cell of the level-1 low band. -/
def res_main_v35 (V0 : Valuation τ sig (Elt F)) : (Proc.devRef .tc main_v35 : DevRef τ sig).ty.Contents (Elt F) :=
  shapeCast _ (extractStridedSlice S32x3x128x1x128x1 ![0, 0, 0, 1, 0, 0] (res_main_v29 V0) slices_S32x3x128x2x128x2_S32x3x128x1x128x1_0_0_0_1_0_0) shapeCasts_S32x3x128x1x128x1_S32x3x128x128

set_option maxRecDepth 8192 in
/-- Corner d of every cell of the level-1 low band. -/
def res_main_v37 (V0 : Valuation τ sig (Elt F)) : (Proc.devRef .tc main_v37 : DevRef τ sig).ty.Contents (Elt F) :=
  shapeCast _ (extractStridedSlice S32x3x128x1x128x1 ![0, 0, 0, 1, 0, 1] (res_main_v29 V0) slices_S32x3x128x2x128x2_S32x3x128x1x128x1_0_0_0_1_0_1) shapeCasts_S32x3x128x1x128x1_S32x3x128x128

set_option maxRecDepth 8192 in
/-- Level-2 low band (a + b + c + d)/2. -/
def res_main_v42 (V0 : Valuation τ sig (Elt F)) : (Proc.devRef .tc main_v42 : DevRef τ sig).ty.Contents (Elt F) :=
  mulf (addf (addf (addf (res_main_v31 V0) (res_main_v33 V0)) (res_main_v35 V0)) (res_main_v37 V0)) (broadcastInDim S32x3x128x128 ![] bcast_S_S32x3x128x128 (constant S_ .f32 0x3F000000#32))

set_option maxRecDepth 8192 in
/-- Level-2 high band (c + d − a − b)/2. -/
def res_main_v47 (V0 : Valuation τ sig (Elt F)) : (Proc.devRef .tc main_v47 : DevRef τ sig).ty.Contents (Elt F) :=
  mulf (subf (subf (addf (res_main_v35 V0) (res_main_v37 V0)) (res_main_v31 V0)) (res_main_v33 V0)) (broadcastInDim S32x3x128x128 ![] bcast_S_S32x3x128x128 (constant S_ .f32 0x3F000000#32))

set_option maxRecDepth 8192 in
/-- Level-2 high band (b + d − a − c)/2. -/
def res_main_v52 (V0 : Valuation τ sig (Elt F)) : (Proc.devRef .tc main_v52 : DevRef τ sig).ty.Contents (Elt F) :=
  mulf (subf (subf (addf (res_main_v33 V0) (res_main_v37 V0)) (res_main_v31 V0)) (res_main_v35 V0)) (broadcastInDim S32x3x128x128 ![] bcast_S_S32x3x128x128 (constant S_ .f32 0x3F000000#32))

set_option maxRecDepth 8192 in
/-- Level-2 high band (a + d − b − c)/2. -/
def res_main_v57 (V0 : Valuation τ sig (Elt F)) : (Proc.devRef .tc main_v57 : DevRef τ sig).ty.Contents (Elt F) :=
  mulf (subf (subf (addf (res_main_v31 V0) (res_main_v37 V0)) (res_main_v33 V0)) (res_main_v35 V0)) (broadcastInDim S32x3x128x128 ![] bcast_S_S32x3x128x128 (constant S_ .f32 0x3F000000#32))

set_option maxRecDepth 8192 in
/-- The level-2 inverse: its four corners interleaved back into cells, [32,3,256,256] — the reconstructed level-1 low band. -/
def res_main_v87 (V0 : Valuation τ sig (Elt F)) : (Proc.devRef .tc main_v87 : DevRef τ sig).ty.Contents (Elt F) :=
  shapeCast _ (concatenate S32x3x128x2x128x2 3 [⟨S32x3x128x1x128x2, (broadcastInDim S32x3x128x1x128x2 ![0, 1, 2, 4, 5] bcast_S32x3x128x128x2_S32x3x128x1x128x2_0_1_2_4_5 (concatenate S32x3x128x128x2 4 [⟨S32x3x128x128x1, (broadcastInDim S32x3x128x128x1 ![0, 1, 2, 3] bcast_S32x3x128x128_S32x3x128x128x1_0_1_2_3 (mulf (addf (subf (subf (res_main_v42 V0) (res_main_v47 V0)) (res_main_v52 V0)) (res_main_v57 V0)) (broadcastInDim S32x3x128x128 ![] bcast_S_S32x3x128x128 (constant S_ .f32 0x3F000000#32))))⟩, ⟨S32x3x128x128x1, (broadcastInDim S32x3x128x128x1 ![0, 1, 2, 3] bcast_S32x3x128x128_S32x3x128x128x1_0_1_2_3 (mulf (subf (addf (subf (res_main_v42 V0) (res_main_v47 V0)) (res_main_v52 V0)) (res_main_v57 V0)) (broadcastInDim S32x3x128x128 ![] bcast_S_S32x3x128x128 (constant S_ .f32 0x3F000000#32))))⟩] concatenates_S32x3x128x128x1_S32x3x128x128x1_S32x3x128x128x2_d4))⟩, ⟨S32x3x128x1x128x2, (broadcastInDim S32x3x128x1x128x2 ![0, 1, 2, 4, 5] bcast_S32x3x128x128x2_S32x3x128x1x128x2_0_1_2_4_5 (concatenate S32x3x128x128x2 4 [⟨S32x3x128x128x1, (broadcastInDim S32x3x128x128x1 ![0, 1, 2, 3] bcast_S32x3x128x128_S32x3x128x128x1_0_1_2_3 (mulf (subf (subf (addf (res_main_v42 V0) (res_main_v47 V0)) (res_main_v52 V0)) (res_main_v57 V0)) (broadcastInDim S32x3x128x128 ![] bcast_S_S32x3x128x128 (constant S_ .f32 0x3F000000#32))))⟩, ⟨S32x3x128x128x1, (broadcastInDim S32x3x128x128x1 ![0, 1, 2, 3] bcast_S32x3x128x128_S32x3x128x128x1_0_1_2_3 (mulf (addf (addf (addf (res_main_v42 V0) (res_main_v47 V0)) (res_main_v52 V0)) (res_main_v57 V0)) (broadcastInDim S32x3x128x128 ![] bcast_S_S32x3x128x128 (constant S_ .f32 0x3F000000#32))))⟩] concatenates_S32x3x128x128x1_S32x3x128x128x1_S32x3x128x128x2_d4))⟩] concatenates_S32x3x128x1x128x2_S32x3x128x1x128x2_S32x3x128x2x128x2_d3) shapeCasts_S32x3x128x2x128x2_S32x3x256x256

/-! ## Each stretch, from ANY contents `V`: what it leaves in the buffers read later, and what it leaves alone -/

variable (V : Valuation τ sig (Elt F))

theorem S1_v2 : after S1 V (Proc.devRef .tc main_v2) = res_main_v2 V := by
  after_results <;> rfl
theorem S1_v4 : after S1 V (Proc.devRef .tc main_v4) = res_main_v4 V := by
  after_results <;> rfl
theorem S1_v6 : after S1 V (Proc.devRef .tc main_v6) = res_main_v6 V := by
  after_results <;> rfl
theorem S1_v8 : after S1 V (Proc.devRef .tc main_v8) = res_main_v8 V := by
  after_results <;> rfl
theorem S1_keep_arg0 : after S1 V (Proc.devRef .tc main_arg0) = V (Proc.devRef .tc main_arg0) := by
  after_results <;> rfl

theorem S2_v13 : after S2 V (Proc.devRef .tc main_v13) = mulf (addf (addf (addf (V (Proc.devRef .tc main_v2)) (V (Proc.devRef .tc main_v4))) (V (Proc.devRef .tc main_v6))) (V (Proc.devRef .tc main_v8))) (broadcastInDim S32x3x256x256 ![] bcast_S_S32x3x256x256 (constant S_ .f32 0x3F000000#32)) := by
  after_results <;> rfl
theorem S2_v18 : after S2 V (Proc.devRef .tc main_v18) = mulf (subf (subf (addf (V (Proc.devRef .tc main_v6)) (V (Proc.devRef .tc main_v8))) (V (Proc.devRef .tc main_v2))) (V (Proc.devRef .tc main_v4))) (broadcastInDim S32x3x256x256 ![] bcast_S_S32x3x256x256 (constant S_ .f32 0x3F000000#32)) := by
  after_results <;> rfl
theorem S2_v23 : after S2 V (Proc.devRef .tc main_v23) = mulf (subf (subf (addf (V (Proc.devRef .tc main_v4)) (V (Proc.devRef .tc main_v8))) (V (Proc.devRef .tc main_v2))) (V (Proc.devRef .tc main_v6))) (broadcastInDim S32x3x256x256 ![] bcast_S_S32x3x256x256 (constant S_ .f32 0x3F000000#32)) := by
  after_results <;> rfl
theorem S2_v28 : after S2 V (Proc.devRef .tc main_v28) = mulf (subf (subf (addf (V (Proc.devRef .tc main_v2)) (V (Proc.devRef .tc main_v8))) (V (Proc.devRef .tc main_v4))) (V (Proc.devRef .tc main_v6))) (broadcastInDim S32x3x256x256 ![] bcast_S_S32x3x256x256 (constant S_ .f32 0x3F000000#32)) := by
  after_results <;> rfl
theorem S2_keep_arg0 : after S2 V (Proc.devRef .tc main_arg0) = V (Proc.devRef .tc main_arg0) := by
  after_results <;> rfl

theorem S3_v31 : after S3 V (Proc.devRef .tc main_v31) = shapeCast _ (extractStridedSlice S32x3x128x1x128x1 ![0, 0, 0, 0, 0, 0] (shapeCast _ (V (Proc.devRef .tc main_v13)) shapeCasts_S32x3x256x256_S32x3x128x2x128x2) slices_S32x3x128x2x128x2_S32x3x128x1x128x1_0_0_0_0_0_0) shapeCasts_S32x3x128x1x128x1_S32x3x128x128 := by
  after_results <;> rfl
theorem S3_v33 : after S3 V (Proc.devRef .tc main_v33) = shapeCast _ (extractStridedSlice S32x3x128x1x128x1 ![0, 0, 0, 0, 0, 1] (shapeCast _ (V (Proc.devRef .tc main_v13)) shapeCasts_S32x3x256x256_S32x3x128x2x128x2) slices_S32x3x128x2x128x2_S32x3x128x1x128x1_0_0_0_0_0_1) shapeCasts_S32x3x128x1x128x1_S32x3x128x128 := by
  after_results <;> rfl
theorem S3_v35 : after S3 V (Proc.devRef .tc main_v35) = shapeCast _ (extractStridedSlice S32x3x128x1x128x1 ![0, 0, 0, 1, 0, 0] (shapeCast _ (V (Proc.devRef .tc main_v13)) shapeCasts_S32x3x256x256_S32x3x128x2x128x2) slices_S32x3x128x2x128x2_S32x3x128x1x128x1_0_0_0_1_0_0) shapeCasts_S32x3x128x1x128x1_S32x3x128x128 := by
  after_results <;> rfl
theorem S3_v37 : after S3 V (Proc.devRef .tc main_v37) = shapeCast _ (extractStridedSlice S32x3x128x1x128x1 ![0, 0, 0, 1, 0, 1] (shapeCast _ (V (Proc.devRef .tc main_v13)) shapeCasts_S32x3x256x256_S32x3x128x2x128x2) slices_S32x3x128x2x128x2_S32x3x128x1x128x1_0_0_0_1_0_1) shapeCasts_S32x3x128x1x128x1_S32x3x128x128 := by
  after_results <;> rfl
theorem S3_keep_v18 : after S3 V (Proc.devRef .tc main_v18) = V (Proc.devRef .tc main_v18) := by
  after_results <;> rfl
theorem S3_keep_v23 : after S3 V (Proc.devRef .tc main_v23) = V (Proc.devRef .tc main_v23) := by
  after_results <;> rfl
theorem S3_keep_v28 : after S3 V (Proc.devRef .tc main_v28) = V (Proc.devRef .tc main_v28) := by
  after_results <;> rfl
theorem S3_keep_arg0 : after S3 V (Proc.devRef .tc main_arg0) = V (Proc.devRef .tc main_arg0) := by
  after_results <;> rfl

theorem S4_v42 : after S4 V (Proc.devRef .tc main_v42) = mulf (addf (addf (addf (V (Proc.devRef .tc main_v31)) (V (Proc.devRef .tc main_v33))) (V (Proc.devRef .tc main_v35))) (V (Proc.devRef .tc main_v37))) (broadcastInDim S32x3x128x128 ![] bcast_S_S32x3x128x128 (constant S_ .f32 0x3F000000#32)) := by
  after_results <;> rfl
theorem S4_v47 : after S4 V (Proc.devRef .tc main_v47) = mulf (subf (subf (addf (V (Proc.devRef .tc main_v35)) (V (Proc.devRef .tc main_v37))) (V (Proc.devRef .tc main_v31))) (V (Proc.devRef .tc main_v33))) (broadcastInDim S32x3x128x128 ![] bcast_S_S32x3x128x128 (constant S_ .f32 0x3F000000#32)) := by
  after_results <;> rfl
theorem S4_v52 : after S4 V (Proc.devRef .tc main_v52) = mulf (subf (subf (addf (V (Proc.devRef .tc main_v33)) (V (Proc.devRef .tc main_v37))) (V (Proc.devRef .tc main_v31))) (V (Proc.devRef .tc main_v35))) (broadcastInDim S32x3x128x128 ![] bcast_S_S32x3x128x128 (constant S_ .f32 0x3F000000#32)) := by
  after_results <;> rfl
theorem S4_v57 : after S4 V (Proc.devRef .tc main_v57) = mulf (subf (subf (addf (V (Proc.devRef .tc main_v31)) (V (Proc.devRef .tc main_v37))) (V (Proc.devRef .tc main_v33))) (V (Proc.devRef .tc main_v35))) (broadcastInDim S32x3x128x128 ![] bcast_S_S32x3x128x128 (constant S_ .f32 0x3F000000#32)) := by
  after_results <;> rfl
theorem S4_keep_v18 : after S4 V (Proc.devRef .tc main_v18) = V (Proc.devRef .tc main_v18) := by
  after_results <;> rfl
theorem S4_keep_v23 : after S4 V (Proc.devRef .tc main_v23) = V (Proc.devRef .tc main_v23) := by
  after_results <;> rfl
theorem S4_keep_v28 : after S4 V (Proc.devRef .tc main_v28) = V (Proc.devRef .tc main_v28) := by
  after_results <;> rfl
theorem S4_keep_arg0 : after S4 V (Proc.devRef .tc main_arg0) = V (Proc.devRef .tc main_arg0) := by
  after_results <;> rfl

theorem S5_v62 : after S5 V (Proc.devRef .tc main_v62) = mulf (addf (subf (subf (V (Proc.devRef .tc main_v42)) (V (Proc.devRef .tc main_v47))) (V (Proc.devRef .tc main_v52))) (V (Proc.devRef .tc main_v57))) (broadcastInDim S32x3x128x128 ![] bcast_S_S32x3x128x128 (constant S_ .f32 0x3F000000#32)) := by
  after_results <;> rfl
theorem S5_v67 : after S5 V (Proc.devRef .tc main_v67) = mulf (subf (addf (subf (V (Proc.devRef .tc main_v42)) (V (Proc.devRef .tc main_v47))) (V (Proc.devRef .tc main_v52))) (V (Proc.devRef .tc main_v57))) (broadcastInDim S32x3x128x128 ![] bcast_S_S32x3x128x128 (constant S_ .f32 0x3F000000#32)) := by
  after_results <;> rfl
theorem S5_v72 : after S5 V (Proc.devRef .tc main_v72) = mulf (subf (subf (addf (V (Proc.devRef .tc main_v42)) (V (Proc.devRef .tc main_v47))) (V (Proc.devRef .tc main_v52))) (V (Proc.devRef .tc main_v57))) (broadcastInDim S32x3x128x128 ![] bcast_S_S32x3x128x128 (constant S_ .f32 0x3F000000#32)) := by
  after_results <;> rfl
theorem S5_v77 : after S5 V (Proc.devRef .tc main_v77) = mulf (addf (addf (addf (V (Proc.devRef .tc main_v42)) (V (Proc.devRef .tc main_v47))) (V (Proc.devRef .tc main_v52))) (V (Proc.devRef .tc main_v57))) (broadcastInDim S32x3x128x128 ![] bcast_S_S32x3x128x128 (constant S_ .f32 0x3F000000#32)) := by
  after_results <;> rfl
theorem S5_keep_v18 : after S5 V (Proc.devRef .tc main_v18) = V (Proc.devRef .tc main_v18) := by
  after_results <;> rfl
theorem S5_keep_v23 : after S5 V (Proc.devRef .tc main_v23) = V (Proc.devRef .tc main_v23) := by
  after_results <;> rfl
theorem S5_keep_v28 : after S5 V (Proc.devRef .tc main_v28) = V (Proc.devRef .tc main_v28) := by
  after_results <;> rfl
theorem S5_keep_arg0 : after S5 V (Proc.devRef .tc main_arg0) = V (Proc.devRef .tc main_arg0) := by
  after_results <;> rfl

theorem S6_v87 : after S6 V (Proc.devRef .tc main_v87) = shapeCast _ (concatenate S32x3x128x2x128x2 3 [⟨S32x3x128x1x128x2, (broadcastInDim S32x3x128x1x128x2 ![0, 1, 2, 4, 5] bcast_S32x3x128x128x2_S32x3x128x1x128x2_0_1_2_4_5 (concatenate S32x3x128x128x2 4 [⟨S32x3x128x128x1, (broadcastInDim S32x3x128x128x1 ![0, 1, 2, 3] bcast_S32x3x128x128_S32x3x128x128x1_0_1_2_3 (V (Proc.devRef .tc main_v62)))⟩, ⟨S32x3x128x128x1, (broadcastInDim S32x3x128x128x1 ![0, 1, 2, 3] bcast_S32x3x128x128_S32x3x128x128x1_0_1_2_3 (V (Proc.devRef .tc main_v67)))⟩] concatenates_S32x3x128x128x1_S32x3x128x128x1_S32x3x128x128x2_d4))⟩, ⟨S32x3x128x1x128x2, (broadcastInDim S32x3x128x1x128x2 ![0, 1, 2, 4, 5] bcast_S32x3x128x128x2_S32x3x128x1x128x2_0_1_2_4_5 (concatenate S32x3x128x128x2 4 [⟨S32x3x128x128x1, (broadcastInDim S32x3x128x128x1 ![0, 1, 2, 3] bcast_S32x3x128x128_S32x3x128x128x1_0_1_2_3 (V (Proc.devRef .tc main_v72)))⟩, ⟨S32x3x128x128x1, (broadcastInDim S32x3x128x128x1 ![0, 1, 2, 3] bcast_S32x3x128x128_S32x3x128x128x1_0_1_2_3 (V (Proc.devRef .tc main_v77)))⟩] concatenates_S32x3x128x128x1_S32x3x128x128x1_S32x3x128x128x2_d4))⟩] concatenates_S32x3x128x1x128x2_S32x3x128x1x128x2_S32x3x128x2x128x2_d3) shapeCasts_S32x3x128x2x128x2_S32x3x256x256 := by
  after_results <;> rfl
theorem S6_keep_v18 : after S6 V (Proc.devRef .tc main_v18) = V (Proc.devRef .tc main_v18) := by
  after_results <;> rfl
theorem S6_keep_v23 : after S6 V (Proc.devRef .tc main_v23) = V (Proc.devRef .tc main_v23) := by
  after_results <;> rfl
theorem S6_keep_v28 : after S6 V (Proc.devRef .tc main_v28) = V (Proc.devRef .tc main_v28) := by
  after_results <;> rfl
theorem S6_keep_arg0 : after S6 V (Proc.devRef .tc main_arg0) = V (Proc.devRef .tc main_arg0) := by
  after_results <;> rfl

theorem S7_v92 : after S7 V (Proc.devRef .tc main_v92) = mulf (addf (subf (subf (V (Proc.devRef .tc main_v87)) (V (Proc.devRef .tc main_v18))) (V (Proc.devRef .tc main_v23))) (V (Proc.devRef .tc main_v28))) (broadcastInDim S32x3x256x256 ![] bcast_S_S32x3x256x256 (constant S_ .f32 0x3F000000#32)) := by
  after_results <;> rfl
theorem S7_v97 : after S7 V (Proc.devRef .tc main_v97) = mulf (subf (addf (subf (V (Proc.devRef .tc main_v87)) (V (Proc.devRef .tc main_v18))) (V (Proc.devRef .tc main_v23))) (V (Proc.devRef .tc main_v28))) (broadcastInDim S32x3x256x256 ![] bcast_S_S32x3x256x256 (constant S_ .f32 0x3F000000#32)) := by
  after_results <;> rfl
theorem S7_v102 : after S7 V (Proc.devRef .tc main_v102) = mulf (subf (subf (addf (V (Proc.devRef .tc main_v87)) (V (Proc.devRef .tc main_v18))) (V (Proc.devRef .tc main_v23))) (V (Proc.devRef .tc main_v28))) (broadcastInDim S32x3x256x256 ![] bcast_S_S32x3x256x256 (constant S_ .f32 0x3F000000#32)) := by
  after_results <;> rfl
theorem S7_v107 : after S7 V (Proc.devRef .tc main_v107) = mulf (addf (addf (addf (V (Proc.devRef .tc main_v87)) (V (Proc.devRef .tc main_v18))) (V (Proc.devRef .tc main_v23))) (V (Proc.devRef .tc main_v28))) (broadcastInDim S32x3x256x256 ![] bcast_S_S32x3x256x256 (constant S_ .f32 0x3F000000#32)) := by
  after_results <;> rfl
theorem S7_keep_arg0 : after S7 V (Proc.devRef .tc main_arg0) = V (Proc.devRef .tc main_arg0) := by
  after_results <;> rfl

theorem S8_v117 : after S8 V (Proc.devRef .tc main_v117) = shapeCast _ (concatenate S32x3x256x2x256x2 3 [⟨S32x3x256x1x256x2, (broadcastInDim S32x3x256x1x256x2 ![0, 1, 2, 4, 5] bcast_S32x3x256x256x2_S32x3x256x1x256x2_0_1_2_4_5 (concatenate S32x3x256x256x2 4 [⟨S32x3x256x256x1, (broadcastInDim S32x3x256x256x1 ![0, 1, 2, 3] bcast_S32x3x256x256_S32x3x256x256x1_0_1_2_3 (V (Proc.devRef .tc main_v92)))⟩, ⟨S32x3x256x256x1, (broadcastInDim S32x3x256x256x1 ![0, 1, 2, 3] bcast_S32x3x256x256_S32x3x256x256x1_0_1_2_3 (V (Proc.devRef .tc main_v97)))⟩] concatenates_S32x3x256x256x1_S32x3x256x256x1_S32x3x256x256x2_d4))⟩, ⟨S32x3x256x1x256x2, (broadcastInDim S32x3x256x1x256x2 ![0, 1, 2, 4, 5] bcast_S32x3x256x256x2_S32x3x256x1x256x2_0_1_2_4_5 (concatenate S32x3x256x256x2 4 [⟨S32x3x256x256x1, (broadcastInDim S32x3x256x256x1 ![0, 1, 2, 3] bcast_S32x3x256x256_S32x3x256x256x1_0_1_2_3 (V (Proc.devRef .tc main_v102)))⟩, ⟨S32x3x256x256x1, (broadcastInDim S32x3x256x256x1 ![0, 1, 2, 3] bcast_S32x3x256x256_S32x3x256x256x1_0_1_2_3 (V (Proc.devRef .tc main_v107)))⟩] concatenates_S32x3x256x256x1_S32x3x256x256x1_S32x3x256x256x2_d4))⟩] concatenates_S32x3x256x1x256x2_S32x3x256x1x256x2_S32x3x256x2x256x2_d3) shapeCasts_S32x3x256x2x256x2_S32x3x512x512 := by
  after_results <;> rfl
theorem S8_keep_arg0 : after S8 V (Proc.devRef .tc main_arg0) = V (Proc.devRef .tc main_arg0) := by
  after_results <;> rfl

/-! ## The stretches in a row, from contents `V0` -/

variable (V0 : Valuation τ sig (Elt F))

theorem W1_v2 : after S1 V0 (Proc.devRef .tc main_v2) = res_main_v2 V0 := by
  rw [S1_v2] <;> rfl
theorem W1_v4 : after S1 V0 (Proc.devRef .tc main_v4) = res_main_v4 V0 := by
  rw [S1_v4] <;> rfl
theorem W1_v6 : after S1 V0 (Proc.devRef .tc main_v6) = res_main_v6 V0 := by
  rw [S1_v6] <;> rfl
theorem W1_v8 : after S1 V0 (Proc.devRef .tc main_v8) = res_main_v8 V0 := by
  rw [S1_v8] <;> rfl
theorem W1_arg0 : after S1 V0 (Proc.devRef .tc main_arg0) = V0 (Proc.devRef .tc main_arg0) := S1_keep_arg0 V0

theorem W2_v13 : after S2 (after S1 V0) (Proc.devRef .tc main_v13) = mulf (addf (addf (addf (res_main_v2 V0) (res_main_v4 V0)) (res_main_v6 V0)) (res_main_v8 V0)) (broadcastInDim S32x3x256x256 ![] bcast_S_S32x3x256x256 (constant S_ .f32 0x3F000000#32)) := by
  rw [S2_v13, W1_v2 V0, W1_v4 V0, W1_v6 V0, W1_v8 V0] <;> rfl
theorem W2_v18 : after S2 (after S1 V0) (Proc.devRef .tc main_v18) = res_main_v18 V0 := by
  rw [S2_v18, W1_v2 V0, W1_v4 V0, W1_v6 V0, W1_v8 V0] <;> rfl
theorem W2_v23 : after S2 (after S1 V0) (Proc.devRef .tc main_v23) = res_main_v23 V0 := by
  rw [S2_v23, W1_v2 V0, W1_v4 V0, W1_v6 V0, W1_v8 V0] <;> rfl
theorem W2_v28 : after S2 (after S1 V0) (Proc.devRef .tc main_v28) = res_main_v28 V0 := by
  rw [S2_v28, W1_v2 V0, W1_v4 V0, W1_v6 V0, W1_v8 V0] <;> rfl
theorem W2_arg0 : after S2 (after S1 V0) (Proc.devRef .tc main_arg0) = V0 (Proc.devRef .tc main_arg0) :=
  (S2_keep_arg0 _).trans (W1_arg0 V0)

theorem W3_v31 : after S3 (after S2 (after S1 V0)) (Proc.devRef .tc main_v31) = res_main_v31 V0 := by
  rw [S3_v31, W2_v13 V0] <;> rfl
theorem W3_v33 : after S3 (after S2 (after S1 V0)) (Proc.devRef .tc main_v33) = res_main_v33 V0 := by
  rw [S3_v33, W2_v13 V0] <;> rfl
theorem W3_v35 : after S3 (after S2 (after S1 V0)) (Proc.devRef .tc main_v35) = res_main_v35 V0 := by
  rw [S3_v35, W2_v13 V0] <;> rfl
theorem W3_v37 : after S3 (after S2 (after S1 V0)) (Proc.devRef .tc main_v37) = res_main_v37 V0 := by
  rw [S3_v37, W2_v13 V0] <;> rfl
theorem W3_v18 : after S3 (after S2 (after S1 V0)) (Proc.devRef .tc main_v18) = res_main_v18 V0 :=
  (S3_keep_v18 _).trans (W2_v18 V0)
theorem W3_v23 : after S3 (after S2 (after S1 V0)) (Proc.devRef .tc main_v23) = res_main_v23 V0 :=
  (S3_keep_v23 _).trans (W2_v23 V0)
theorem W3_v28 : after S3 (after S2 (after S1 V0)) (Proc.devRef .tc main_v28) = res_main_v28 V0 :=
  (S3_keep_v28 _).trans (W2_v28 V0)
theorem W3_arg0 : after S3 (after S2 (after S1 V0)) (Proc.devRef .tc main_arg0) = V0 (Proc.devRef .tc main_arg0) :=
  (S3_keep_arg0 _).trans (W2_arg0 V0)

theorem W4_v42 : after S4 (after S3 (after S2 (after S1 V0))) (Proc.devRef .tc main_v42) = res_main_v42 V0 := by
  rw [S4_v42, W3_v31 V0, W3_v33 V0, W3_v35 V0, W3_v37 V0] <;> rfl
theorem W4_v47 : after S4 (after S3 (after S2 (after S1 V0))) (Proc.devRef .tc main_v47) = res_main_v47 V0 := by
  rw [S4_v47, W3_v31 V0, W3_v33 V0, W3_v35 V0, W3_v37 V0] <;> rfl
theorem W4_v52 : after S4 (after S3 (after S2 (after S1 V0))) (Proc.devRef .tc main_v52) = res_main_v52 V0 := by
  rw [S4_v52, W3_v31 V0, W3_v33 V0, W3_v35 V0, W3_v37 V0] <;> rfl
theorem W4_v57 : after S4 (after S3 (after S2 (after S1 V0))) (Proc.devRef .tc main_v57) = res_main_v57 V0 := by
  rw [S4_v57, W3_v31 V0, W3_v33 V0, W3_v35 V0, W3_v37 V0] <;> rfl
theorem W4_v18 : after S4 (after S3 (after S2 (after S1 V0))) (Proc.devRef .tc main_v18) = res_main_v18 V0 :=
  (S4_keep_v18 _).trans (W3_v18 V0)
theorem W4_v23 : after S4 (after S3 (after S2 (after S1 V0))) (Proc.devRef .tc main_v23) = res_main_v23 V0 :=
  (S4_keep_v23 _).trans (W3_v23 V0)
theorem W4_v28 : after S4 (after S3 (after S2 (after S1 V0))) (Proc.devRef .tc main_v28) = res_main_v28 V0 :=
  (S4_keep_v28 _).trans (W3_v28 V0)
theorem W4_arg0 : after S4 (after S3 (after S2 (after S1 V0))) (Proc.devRef .tc main_arg0) = V0 (Proc.devRef .tc main_arg0) :=
  (S4_keep_arg0 _).trans (W3_arg0 V0)

theorem W5_v62 : after S5 (after S4 (after S3 (after S2 (after S1 V0)))) (Proc.devRef .tc main_v62) = mulf (addf (subf (subf (res_main_v42 V0) (res_main_v47 V0)) (res_main_v52 V0)) (res_main_v57 V0)) (broadcastInDim S32x3x128x128 ![] bcast_S_S32x3x128x128 (constant S_ .f32 0x3F000000#32)) := by
  rw [S5_v62, W4_v42 V0, W4_v47 V0, W4_v52 V0, W4_v57 V0] <;> rfl
theorem W5_v67 : after S5 (after S4 (after S3 (after S2 (after S1 V0)))) (Proc.devRef .tc main_v67) = mulf (subf (addf (subf (res_main_v42 V0) (res_main_v47 V0)) (res_main_v52 V0)) (res_main_v57 V0)) (broadcastInDim S32x3x128x128 ![] bcast_S_S32x3x128x128 (constant S_ .f32 0x3F000000#32)) := by
  rw [S5_v67, W4_v42 V0, W4_v47 V0, W4_v52 V0, W4_v57 V0] <;> rfl
theorem W5_v72 : after S5 (after S4 (after S3 (after S2 (after S1 V0)))) (Proc.devRef .tc main_v72) = mulf (subf (subf (addf (res_main_v42 V0) (res_main_v47 V0)) (res_main_v52 V0)) (res_main_v57 V0)) (broadcastInDim S32x3x128x128 ![] bcast_S_S32x3x128x128 (constant S_ .f32 0x3F000000#32)) := by
  rw [S5_v72, W4_v42 V0, W4_v47 V0, W4_v52 V0, W4_v57 V0] <;> rfl
theorem W5_v77 : after S5 (after S4 (after S3 (after S2 (after S1 V0)))) (Proc.devRef .tc main_v77) = mulf (addf (addf (addf (res_main_v42 V0) (res_main_v47 V0)) (res_main_v52 V0)) (res_main_v57 V0)) (broadcastInDim S32x3x128x128 ![] bcast_S_S32x3x128x128 (constant S_ .f32 0x3F000000#32)) := by
  rw [S5_v77, W4_v42 V0, W4_v47 V0, W4_v52 V0, W4_v57 V0] <;> rfl
theorem W5_v18 : after S5 (after S4 (after S3 (after S2 (after S1 V0)))) (Proc.devRef .tc main_v18) = res_main_v18 V0 :=
  (S5_keep_v18 _).trans (W4_v18 V0)
theorem W5_v23 : after S5 (after S4 (after S3 (after S2 (after S1 V0)))) (Proc.devRef .tc main_v23) = res_main_v23 V0 :=
  (S5_keep_v23 _).trans (W4_v23 V0)
theorem W5_v28 : after S5 (after S4 (after S3 (after S2 (after S1 V0)))) (Proc.devRef .tc main_v28) = res_main_v28 V0 :=
  (S5_keep_v28 _).trans (W4_v28 V0)
theorem W5_arg0 : after S5 (after S4 (after S3 (after S2 (after S1 V0)))) (Proc.devRef .tc main_arg0) = V0 (Proc.devRef .tc main_arg0) :=
  (S5_keep_arg0 _).trans (W4_arg0 V0)

theorem W6_v87 : after S6 (after S5 (after S4 (after S3 (after S2 (after S1 V0))))) (Proc.devRef .tc main_v87) = res_main_v87 V0 := by
  rw [S6_v87, W5_v62 V0, W5_v67 V0, W5_v72 V0, W5_v77 V0] <;> rfl
theorem W6_v18 : after S6 (after S5 (after S4 (after S3 (after S2 (after S1 V0))))) (Proc.devRef .tc main_v18) = res_main_v18 V0 :=
  (S6_keep_v18 _).trans (W5_v18 V0)
theorem W6_v23 : after S6 (after S5 (after S4 (after S3 (after S2 (after S1 V0))))) (Proc.devRef .tc main_v23) = res_main_v23 V0 :=
  (S6_keep_v23 _).trans (W5_v23 V0)
theorem W6_v28 : after S6 (after S5 (after S4 (after S3 (after S2 (after S1 V0))))) (Proc.devRef .tc main_v28) = res_main_v28 V0 :=
  (S6_keep_v28 _).trans (W5_v28 V0)
theorem W6_arg0 : after S6 (after S5 (after S4 (after S3 (after S2 (after S1 V0))))) (Proc.devRef .tc main_arg0) = V0 (Proc.devRef .tc main_arg0) :=
  (S6_keep_arg0 _).trans (W5_arg0 V0)

theorem W7_v92 : after S7 (after S6 (after S5 (after S4 (after S3 (after S2 (after S1 V0)))))) (Proc.devRef .tc main_v92) = mulf (addf (subf (subf (res_main_v87 V0) (res_main_v18 V0)) (res_main_v23 V0)) (res_main_v28 V0)) (broadcastInDim S32x3x256x256 ![] bcast_S_S32x3x256x256 (constant S_ .f32 0x3F000000#32)) := by
  rw [S7_v92, W6_v87 V0, W6_v18 V0, W6_v23 V0, W6_v28 V0] <;> rfl
theorem W7_v97 : after S7 (after S6 (after S5 (after S4 (after S3 (after S2 (after S1 V0)))))) (Proc.devRef .tc main_v97) = mulf (subf (addf (subf (res_main_v87 V0) (res_main_v18 V0)) (res_main_v23 V0)) (res_main_v28 V0)) (broadcastInDim S32x3x256x256 ![] bcast_S_S32x3x256x256 (constant S_ .f32 0x3F000000#32)) := by
  rw [S7_v97, W6_v87 V0, W6_v18 V0, W6_v23 V0, W6_v28 V0] <;> rfl
theorem W7_v102 : after S7 (after S6 (after S5 (after S4 (after S3 (after S2 (after S1 V0)))))) (Proc.devRef .tc main_v102) = mulf (subf (subf (addf (res_main_v87 V0) (res_main_v18 V0)) (res_main_v23 V0)) (res_main_v28 V0)) (broadcastInDim S32x3x256x256 ![] bcast_S_S32x3x256x256 (constant S_ .f32 0x3F000000#32)) := by
  rw [S7_v102, W6_v87 V0, W6_v18 V0, W6_v23 V0, W6_v28 V0] <;> rfl
theorem W7_v107 : after S7 (after S6 (after S5 (after S4 (after S3 (after S2 (after S1 V0)))))) (Proc.devRef .tc main_v107) = mulf (addf (addf (addf (res_main_v87 V0) (res_main_v18 V0)) (res_main_v23 V0)) (res_main_v28 V0)) (broadcastInDim S32x3x256x256 ![] bcast_S_S32x3x256x256 (constant S_ .f32 0x3F000000#32)) := by
  rw [S7_v107, W6_v87 V0, W6_v18 V0, W6_v23 V0, W6_v28 V0] <;> rfl
theorem W7_arg0 : after S7 (after S6 (after S5 (after S4 (after S3 (after S2 (after S1 V0)))))) (Proc.devRef .tc main_arg0) = V0 (Proc.devRef .tc main_arg0) :=
  (S7_keep_arg0 _).trans (W6_arg0 V0)

theorem W8_v117 : after S8 (after S7 (after S6 (after S5 (after S4 (after S3 (after S2 (after S1 V0))))))) (Proc.devRef .tc main_v117) = shapeCast _ (concatenate S32x3x256x2x256x2 3 [⟨S32x3x256x1x256x2, (broadcastInDim S32x3x256x1x256x2 ![0, 1, 2, 4, 5] bcast_S32x3x256x256x2_S32x3x256x1x256x2_0_1_2_4_5 (concatenate S32x3x256x256x2 4 [⟨S32x3x256x256x1, (broadcastInDim S32x3x256x256x1 ![0, 1, 2, 3] bcast_S32x3x256x256_S32x3x256x256x1_0_1_2_3 (mulf (addf (subf (subf (res_main_v87 V0) (res_main_v18 V0)) (res_main_v23 V0)) (res_main_v28 V0)) (broadcastInDim S32x3x256x256 ![] bcast_S_S32x3x256x256 (constant S_ .f32 0x3F000000#32))))⟩, ⟨S32x3x256x256x1, (broadcastInDim S32x3x256x256x1 ![0, 1, 2, 3] bcast_S32x3x256x256_S32x3x256x256x1_0_1_2_3 (mulf (subf (addf (subf (res_main_v87 V0) (res_main_v18 V0)) (res_main_v23 V0)) (res_main_v28 V0)) (broadcastInDim S32x3x256x256 ![] bcast_S_S32x3x256x256 (constant S_ .f32 0x3F000000#32))))⟩] concatenates_S32x3x256x256x1_S32x3x256x256x1_S32x3x256x256x2_d4))⟩, ⟨S32x3x256x1x256x2, (broadcastInDim S32x3x256x1x256x2 ![0, 1, 2, 4, 5] bcast_S32x3x256x256x2_S32x3x256x1x256x2_0_1_2_4_5 (concatenate S32x3x256x256x2 4 [⟨S32x3x256x256x1, (broadcastInDim S32x3x256x256x1 ![0, 1, 2, 3] bcast_S32x3x256x256_S32x3x256x256x1_0_1_2_3 (mulf (subf (subf (addf (res_main_v87 V0) (res_main_v18 V0)) (res_main_v23 V0)) (res_main_v28 V0)) (broadcastInDim S32x3x256x256 ![] bcast_S_S32x3x256x256 (constant S_ .f32 0x3F000000#32))))⟩, ⟨S32x3x256x256x1, (broadcastInDim S32x3x256x256x1 ![0, 1, 2, 3] bcast_S32x3x256x256_S32x3x256x256x1_0_1_2_3 (mulf (addf (addf (addf (res_main_v87 V0) (res_main_v18 V0)) (res_main_v23 V0)) (res_main_v28 V0)) (broadcastInDim S32x3x256x256 ![] bcast_S_S32x3x256x256 (constant S_ .f32 0x3F000000#32))))⟩] concatenates_S32x3x256x256x1_S32x3x256x256x1_S32x3x256x256x2_d4))⟩] concatenates_S32x3x256x1x256x2_S32x3x256x1x256x2_S32x3x256x2x256x2_d3) shapeCasts_S32x3x256x2x256x2_S32x3x512x512 := by
  rw [S8_v117, W7_v92 V0, W7_v97 V0, W7_v102 V0, W7_v107 V0] <;> rfl
theorem W8_arg0 : after S8 (after S7 (after S6 (after S5 (after S4 (after S3 (after S2 (after S1 V0))))))) (Proc.devRef .tc main_arg0) = V0 (Proc.devRef .tc main_arg0) :=
  (S8_keep_arg0 _).trans (W7_arg0 V0)

/-- The whole line is the eight stretches applied in turn. -/
theorem after_ops : after ops V0 = after S8 (after S7 (after S6 (after S5 (after S4 (after S3 (after S2 (after S1 V0))))))) := by
  show after (S1 ++ S2 ++ S3 ++ S4 ++ S5 ++ S6 ++ S7 ++ S8) V0 = _
  rw [StableHlo.after_append, StableHlo.after_append, StableHlo.after_append, StableHlo.after_append, StableHlo.after_append, StableHlo.after_append, StableHlo.after_append]

/-- The result: the level-1 inverse of the reconstructed low band and the three level-1 high bands. -/
theorem result_v117 : after ops V0 (Proc.devRef .tc main_v117) = shapeCast _ (concatenate S32x3x256x2x256x2 3 [⟨S32x3x256x1x256x2, (broadcastInDim S32x3x256x1x256x2 ![0, 1, 2, 4, 5] bcast_S32x3x256x256x2_S32x3x256x1x256x2_0_1_2_4_5 (concatenate S32x3x256x256x2 4 [⟨S32x3x256x256x1, (broadcastInDim S32x3x256x256x1 ![0, 1, 2, 3] bcast_S32x3x256x256_S32x3x256x256x1_0_1_2_3 (mulf (addf (subf (subf (res_main_v87 V0) (res_main_v18 V0)) (res_main_v23 V0)) (res_main_v28 V0)) (broadcastInDim S32x3x256x256 ![] bcast_S_S32x3x256x256 (constant S_ .f32 0x3F000000#32))))⟩, ⟨S32x3x256x256x1, (broadcastInDim S32x3x256x256x1 ![0, 1, 2, 3] bcast_S32x3x256x256_S32x3x256x256x1_0_1_2_3 (mulf (subf (addf (subf (res_main_v87 V0) (res_main_v18 V0)) (res_main_v23 V0)) (res_main_v28 V0)) (broadcastInDim S32x3x256x256 ![] bcast_S_S32x3x256x256 (constant S_ .f32 0x3F000000#32))))⟩] concatenates_S32x3x256x256x1_S32x3x256x256x1_S32x3x256x256x2_d4))⟩, ⟨S32x3x256x1x256x2, (broadcastInDim S32x3x256x1x256x2 ![0, 1, 2, 4, 5] bcast_S32x3x256x256x2_S32x3x256x1x256x2_0_1_2_4_5 (concatenate S32x3x256x256x2 4 [⟨S32x3x256x256x1, (broadcastInDim S32x3x256x256x1 ![0, 1, 2, 3] bcast_S32x3x256x256_S32x3x256x256x1_0_1_2_3 (mulf (subf (subf (addf (res_main_v87 V0) (res_main_v18 V0)) (res_main_v23 V0)) (res_main_v28 V0)) (broadcastInDim S32x3x256x256 ![] bcast_S_S32x3x256x256 (constant S_ .f32 0x3F000000#32))))⟩, ⟨S32x3x256x256x1, (broadcastInDim S32x3x256x256x1 ![0, 1, 2, 3] bcast_S32x3x256x256_S32x3x256x256x1_0_1_2_3 (mulf (addf (addf (addf (res_main_v87 V0) (res_main_v18 V0)) (res_main_v23 V0)) (res_main_v28 V0)) (broadcastInDim S32x3x256x256 ![] bcast_S_S32x3x256x256 (constant S_ .f32 0x3F000000#32))))⟩] concatenates_S32x3x256x256x1_S32x3x256x256x1_S32x3x256x256x2_d4))⟩] concatenates_S32x3x256x1x256x2_S32x3x256x1x256x2_S32x3x256x2x256x2_d3) shapeCasts_S32x3x256x2x256x2_S32x3x512x512 := by
  rw [after_ops]; exact W8_v117 V0

/-- No operation writes the argument. -/
theorem result_arg0 : after ops V0 (Proc.devRef .tc main_arg0) = V0 (Proc.devRef .tc main_arg0) := by
  rw [after_ops]; exact W8_arg0 V0

/-! ## The run -/

/-- On every device, for any float values, from any memory with zero counters: every weakly fair execution of
    @main terminates with the result at the two-level transform followed by its two-level inverse of the
    argument, as the named terms compose it, and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v117) = shapeCast _ (concatenate S32x3x256x2x256x2 3 [⟨S32x3x256x1x256x2, (broadcastInDim S32x3x256x1x256x2 ![0, 1, 2, 4, 5] bcast_S32x3x256x256x2_S32x3x256x1x256x2_0_1_2_4_5 (concatenate S32x3x256x256x2 4 [⟨S32x3x256x256x1, (broadcastInDim S32x3x256x256x1 ![0, 1, 2, 3] bcast_S32x3x256x256_S32x3x256x256x1_0_1_2_3 (mulf (addf (subf (subf (res_main_v87 (launchContents m c)) (res_main_v18 (launchContents m c))) (res_main_v23 (launchContents m c))) (res_main_v28 (launchContents m c))) (broadcastInDim S32x3x256x256 ![] bcast_S_S32x3x256x256 (constant S_ .f32 0x3F000000#32))))⟩, ⟨S32x3x256x256x1, (broadcastInDim S32x3x256x256x1 ![0, 1, 2, 3] bcast_S32x3x256x256_S32x3x256x256x1_0_1_2_3 (mulf (subf (addf (subf (res_main_v87 (launchContents m c)) (res_main_v18 (launchContents m c))) (res_main_v23 (launchContents m c))) (res_main_v28 (launchContents m c))) (broadcastInDim S32x3x256x256 ![] bcast_S_S32x3x256x256 (constant S_ .f32 0x3F000000#32))))⟩] concatenates_S32x3x256x256x1_S32x3x256x256x1_S32x3x256x256x2_d4))⟩, ⟨S32x3x256x1x256x2, (broadcastInDim S32x3x256x1x256x2 ![0, 1, 2, 4, 5] bcast_S32x3x256x256x2_S32x3x256x1x256x2_0_1_2_4_5 (concatenate S32x3x256x256x2 4 [⟨S32x3x256x256x1, (broadcastInDim S32x3x256x256x1 ![0, 1, 2, 3] bcast_S32x3x256x256_S32x3x256x256x1_0_1_2_3 (mulf (subf (subf (addf (res_main_v87 (launchContents m c)) (res_main_v18 (launchContents m c))) (res_main_v23 (launchContents m c))) (res_main_v28 (launchContents m c))) (broadcastInDim S32x3x256x256 ![] bcast_S_S32x3x256x256 (constant S_ .f32 0x3F000000#32))))⟩, ⟨S32x3x256x256x1, (broadcastInDim S32x3x256x256x1 ![0, 1, 2, 3] bcast_S32x3x256x256_S32x3x256x256x1_0_1_2_3 (mulf (addf (addf (addf (res_main_v87 (launchContents m c)) (res_main_v18 (launchContents m c))) (res_main_v23 (launchContents m c))) (res_main_v28 (launchContents m c))) (broadcastInDim S32x3x256x256 ![] bcast_S_S32x3x256x256 (constant S_ .f32 0x3F000000#32))))⟩] concatenates_S32x3x256x256x1_S32x3x256x256x1_S32x3x256x256x2_d4))⟩] concatenates_S32x3x256x1x256x2_S32x3x256x1x256x2_S32x3x256x2x256x2_d3) shapeCasts_S32x3x256x2x256x2_S32x3x512x512
      ∧ r.2.mem ((c.tc : Thread nD τ).loc main_arg0) = m ((c.tc : Thread nD τ).loc main_arg0) :=
  (θ_run defs _ _).mono (fun _ h c => ⟨(h c main_v117).trans (result_v117 (launchContents m c)),
      (h c main_arg0).trans (result_arg0 (launchContents m c))⟩)
    (run_seq scopedRefs_eq scopedSems_eq defs main (fun _ => ops) main_eq (fun _ => ops_sub) m ρ (fun _ => ops_fresh))

end Cert.ReferenceIdeal.HandRun

end
-- ==== Proof.HaarAlgebra.lean ====
/-
  The orthonormal 2×2 Haar step on four arrays of one shape, and its inverse, on the extended reals.

  From four arrays a, b, c, d (the four corners of every 2×2 cell) the forward step forms
    LL = (a + b + c + d)/2,  LH = (c + d − a − b)/2,  HL = (b + d − a − c)/2,  HH = (a + d − b − c)/2,
  and the inverse step forms, from LL, LH, HL, HH,
    a' = (LL − LH − HL + HH)/2,  b' = (LL − LH + HL − HH)/2,  c' = (LL + LH − HL − HH)/2,  d' = (LL + LH + HL + HH)/2.
  Over the real numbers the inverse undoes the forward step: in a' the b, c, d terms cancel and 4a/4 is left, and
  likewise for the others. The cancellations are subtractions of equal terms, which on the extended reals hold
  only away from the infinities; so every statement here is about arrays whose entries are all real numbers, and
  the sums stay real, which is what lets the step be applied a second time to LL.
-/
import Idealize.ShloMosaic.PureOps.Ideal
import Idealize.ShloMosaic.Lib.ValueIdx

noncomputable section

namespace Cert.Haar

open Idealize.ShloMosaic Idealize.ShloMosaic.ValueIdx

variable {s : Shape}

/-- Every entry of the array is a real number (neither infinity). -/
def IsReal (v : FVec Ideal s .f32) : Prop := ∀ i, ∃ r : ℝ, v i = (r : EReal)

/-- Every entry of the array is one half. -/
def IsHalf (H : FVec Ideal s .f32) : Prop := ∀ i, H i = ((1 / 2 : ℝ) : EReal)

/-- The single-precision word of 0.5 denotes the real number one half. -/
theorem ofBits_half : Ideal.ofBits .f32 0x3F000000#32 = ((1 / 2 : ℝ) : EReal) := by
  simp [Ideal.ofBits, Ideal.ieee, -EReal.coe_mul]; norm_num

/-- An array each of whose entries is some entry of a real-valued array is real-valued. -/
theorem IsReal.of_reads {t : Shape} {x : FVec Ideal s .f32} {y : FVec Ideal t .f32} (hx : IsReal x)
    (h : ∀ i, ∃ k, y i = x k) : IsReal y := fun i => by
  obtain ⟨k, e⟩ := h i
  rw [e]; exact hx k

/-! ## The forward step -/

/-- (a + b + c + d)/2 -/
abbrev fLL (a b c d H : FVec Ideal s .f32) : FVec Ideal s .f32 := mulf (addf (addf (addf a b) c) d) H
/-- (c + d − a − b)/2 -/
abbrev fLH (a b c d H : FVec Ideal s .f32) : FVec Ideal s .f32 := mulf (subf (subf (addf c d) a) b) H
/-- (b + d − a − c)/2 -/
abbrev fHL (a b c d H : FVec Ideal s .f32) : FVec Ideal s .f32 := mulf (subf (subf (addf b d) a) c) H
/-- (a + d − b − c)/2 -/
abbrev fHH (a b c d H : FVec Ideal s .f32) : FVec Ideal s .f32 := mulf (subf (subf (addf a d) b) c) H

/-! ## The inverse step -/

/-- (LL − LH − HL + HH)/2 -/
abbrev gA (LL LH HL HH H : FVec Ideal s .f32) : FVec Ideal s .f32 := mulf (addf (subf (subf LL LH) HL) HH) H
/-- (LL − LH + HL − HH)/2 -/
abbrev gB (LL LH HL HH H : FVec Ideal s .f32) : FVec Ideal s .f32 := mulf (subf (addf (subf LL LH) HL) HH) H
/-- (LL + LH − HL − HH)/2 -/
abbrev gC (LL LH HL HH H : FVec Ideal s .f32) : FVec Ideal s .f32 := mulf (subf (subf (addf LL LH) HL) HH) H
/-- (LL + LH + HL + HH)/2 -/
abbrev gD (LL LH HL HH H : FVec Ideal s .f32) : FVec Ideal s .f32 := mulf (addf (addf (addf LL LH) HL) HH) H

variable {a b c d H : FVec Ideal s .f32}

/-- The half-sum of four real-valued arrays is real-valued. -/
theorem isReal_fLL (hH : IsHalf H) (ha : IsReal a) (hb : IsReal b) (hc : IsReal c) (hd : IsReal d) :
    IsReal (fLL a b c d H) := by
  intro i
  obtain ⟨ra, ea⟩ := ha i; obtain ⟨rb, eb⟩ := hb i; obtain ⟨rc, ec⟩ := hc i; obtain ⟨rd, ed⟩ := hd i
  refine ⟨(ra + rb + rc + rd) * (1 / 2), ?_⟩
  simp only [fLL, mulf_apply, addf_apply, ea, eb, ec, ed, hH i]
  norm_cast

/-- On real-valued arrays the inverse step's first output is the first corner: the b, c, d terms cancel. -/
theorem gA_fwd (hH : IsHalf H) (ha : IsReal a) (hb : IsReal b) (hc : IsReal c) (hd : IsReal d) :
    gA (fLL a b c d H) (fLH a b c d H) (fHL a b c d H) (fHH a b c d H) H = a := by
  funext i
  obtain ⟨ra, ea⟩ := ha i; obtain ⟨rb, eb⟩ := hb i; obtain ⟨rc, ec⟩ := hc i; obtain ⟨rd, ed⟩ := hd i
  simp only [gA, fLL, fLH, fHL, fHH, mulf_apply, addf_apply, subf_apply, ea, eb, ec, ed, hH i]
  norm_cast
  ring

/-- … its second output the second corner … -/
theorem gB_fwd (hH : IsHalf H) (ha : IsReal a) (hb : IsReal b) (hc : IsReal c) (hd : IsReal d) :
    gB (fLL a b c d H) (fLH a b c d H) (fHL a b c d H) (fHH a b c d H) H = b := by
  funext i
  obtain ⟨ra, ea⟩ := ha i; obtain ⟨rb, eb⟩ := hb i; obtain ⟨rc, ec⟩ := hc i; obtain ⟨rd, ed⟩ := hd i
  simp only [gB, fLL, fLH, fHL, fHH, mulf_apply, addf_apply, subf_apply, ea, eb, ec, ed, hH i]
  norm_cast
  ring

/-- … its third output the third corner … -/
theorem gC_fwd (hH : IsHalf H) (ha : IsReal a) (hb : IsReal b) (hc : IsReal c) (hd : IsReal d) :
    gC (fLL a b c d H) (fLH a b c d H) (fHL a b c d H) (fHH a b c d H) H = c := by
  funext i
  obtain ⟨ra, ea⟩ := ha i; obtain ⟨rb, eb⟩ := hb i; obtain ⟨rc, ec⟩ := hc i; obtain ⟨rd, ed⟩ := hd i
  simp only [gC, fLL, fLH, fHL, fHH, mulf_apply, addf_apply, subf_apply, ea, eb, ec, ed, hH i]
  norm_cast
  ring

/-- … and its fourth output the fourth corner. -/
theorem gD_fwd (hH : IsHalf H) (ha : IsReal a) (hb : IsReal b) (hc : IsReal c) (hd : IsReal d) :
    gD (fLL a b c d H) (fLH a b c d H) (fHL a b c d H) (fHH a b c d H) H = d := by
  funext i
  obtain ⟨ra, ea⟩ := ha i; obtain ⟨rb, eb⟩ := hb i; obtain ⟨rc, ec⟩ := hc i; obtain ⟨rd, ed⟩ := hd i
  simp only [gD, fLL, fLH, fHL, fHH, mulf_apply, addf_apply, subf_apply, ea, eb, ec, ed, hH i]
  norm_cast
  ring

end Cert.Haar

end
-- ==== Proof.Cells512.lean ====
/-
  Cutting an array of 512×512 images into 2×2 cells, and putting it together again.

  An array x of shape [32, 3, 512, 512] is read as [32, 3, 256, 2, 256, 2]: entry (b, c, h, r, w, s) of the second
  is entry (b, c, 2h + r, 2w + s) of the first, because both sit at the same row-major position. Fixing (r, s)
  picks one corner of every 2×2 cell: an array of shape [32, 3, 256, 256] (`corner r s x`). In the other direction
  four arrays A, B, C, D of shape [32, 3, 256, 256] are interleaved (`interleave A B C D`): A and B are laid side by
  side along a new last axis, C and D likewise, the two pairs along a new axis after the row axis, and the
  [32, 3, 256, 2, 256, 2] array so obtained is read as [32, 3, 512, 512]; its entry (b, c, 2h + r, 2w + s) is the
  entry (b, c, h, w) of A, B, C or D as (r, s) is (0,0), (0,1), (1,0) or (1,1). Interleaving the four corners of x
  gives x back (`interleave_corners`). Nothing here depends on what the entries are.
-/
import Idealize.ShloMosaic.Lib.Pipeline.Value
import Idealize.ShloMosaic.Lib.ValueIdx
import Idealize.ShloMosaic.Lib.ValueIdxRank6

noncomputable section

namespace Cert.Haar.Cells512

open Idealize.ShloMosaic Idealize.ShloMosaic.ValueIdx

/-- The whole images. -/
abbrev Whole : Shape := ⟨4, ![32, 3, 512, 512]⟩
/-- One corner of every cell. -/
abbrev Quarter : Shape := ⟨4, ![32, 3, 256, 256]⟩
/-- The images cut into 2×2 cells. -/
abbrev Cells : Shape := ⟨6, ![32, 3, 256, 2, 256, 2]⟩
/-- One corner of every cell, the two cell axes kept with extent one. -/
abbrev CornerCells : Shape := ⟨6, ![32, 3, 256, 1, 256, 1]⟩
/-- A quarter with a new last axis of extent one … -/
abbrev QuarterCol : Shape := ⟨5, ![32, 3, 256, 256, 1]⟩
/-- … and two of them side by side: one row of every cell. -/
abbrev QuarterPair : Shape := ⟨5, ![32, 3, 256, 256, 2]⟩
/-- One row of every cell, with a new axis of extent one after the row axis. -/
abbrev RowCells : Shape := ⟨6, ![32, 3, 256, 1, 256, 2]⟩

variable {α : Type}

/-- Corner (r, s) of every 2×2 cell of `x`. -/
def corner (r s : Nat) (hc : Whole.ShapeCasts Cells) (hs : Cells.Slices ![0, 0, 0, r, 0, s] CornerCells)
    (hu : CornerCells.ShapeCasts Quarter) (x : Whole.Idx → α) : Quarter.Idx → α :=
  shapeCast Quarter (extractStridedSlice CornerCells ![0, 0, 0, r, 0, s] (shapeCast Cells x hc) hs) hu

/-- Entry (b, c, h, w) of corner (r, s) is entry (b, c, 2h + r, 2w + s) of the array. -/
theorem corner_apply (r s : Nat) (hr : r < 2) (hs2 : s < 2) (hc : Whole.ShapeCasts Cells)
    (hs : Cells.Slices ![0, 0, 0, r, 0, s] CornerCells) (hu : CornerCells.ShapeCasts Quarter) (x : Whole.Idx → α)
    (b : Fin 32) (c : Fin 3) (h w : Fin 256) (p q : Fin 512) (hp : p.val = 2 * h.val + r) (hq : q.val = 2 * w.val + s) :
    corner r s hc hs hu x (ix4 b c h w) = x (ix4 b c p q) := by
  unfold corner
  refine (shapeCast_apply _ hu (ix4 b c h w) (ix6 b c h (0 : Fin 1) w (0 : Fin 1)) ?_).trans ?_
  · rw [Shape.rowMajor_val_six, Shape.rowMajor_val_four]
    show (((((b.val * 3 + c.val) * 256 + h.val) * 1 + 0) * 256 + w.val) * 1 + 0) = ((b.val * 3 + c.val) * 256 + h.val) * 256 + w.val
    omega
  refine (extractStridedSlice_apply _ _ hs (ix6 b c h (0 : Fin 1) w (0 : Fin 1))
    (ix6 b c h (⟨r, hr⟩ : Fin 2) w (⟨s, hs2⟩ : Fin 2)) ?_).trans ?_
  · intro a
    match a with
    | ⟨0, _⟩ => exact (Nat.zero_add _).symm
    | ⟨1, _⟩ => exact (Nat.zero_add _).symm
    | ⟨2, _⟩ => exact (Nat.zero_add _).symm
    | ⟨3, _⟩ => rfl
    | ⟨4, _⟩ => exact (Nat.zero_add _).symm
    | ⟨5, _⟩ => rfl
  refine shapeCast_apply _ hc _ (ix4 b c p q) ?_
  rw [Shape.rowMajor_val_six, Shape.rowMajor_val_four]
  show ((b.val * 3 + c.val) * 512 + p.val) * 512 + q.val = ((((b.val * 3 + c.val) * 256 + h.val) * 2 + r) * 256 + w.val) * 2 + s
  omega

/-- The four arrays interleaved: A, B the upper row of every cell, C, D the lower. -/
def interleave (h4 : Quarter.BroadcastsInDim QuarterCol (![0, 1, 2, 3] : Fin 4 → Fin QuarterCol.rank))
    (hc4 : Shape.Concatenates [QuarterCol, QuarterCol] QuarterPair 4)
    (h5 : QuarterPair.BroadcastsInDim RowCells (![0, 1, 2, 4, 5] : Fin 5 → Fin RowCells.rank))
    (hc3 : Shape.Concatenates [RowCells, RowCells] Cells 3) (hw : Cells.ShapeCasts Whole)
    (A B C D : Quarter.Idx → α) : Whole.Idx → α :=
  shapeCast Whole (concatenate Cells 3
    [⟨RowCells, broadcastInDim RowCells ![0, 1, 2, 4, 5] h5 (concatenate QuarterPair 4
        [⟨QuarterCol, broadcastInDim QuarterCol ![0, 1, 2, 3] h4 A⟩, ⟨QuarterCol, broadcastInDim QuarterCol ![0, 1, 2, 3] h4 B⟩] hc4)⟩,
     ⟨RowCells, broadcastInDim RowCells ![0, 1, 2, 4, 5] h5 (concatenate QuarterPair 4
        [⟨QuarterCol, broadcastInDim QuarterCol ![0, 1, 2, 3] h4 C⟩, ⟨QuarterCol, broadcastInDim QuarterCol ![0, 1, 2, 3] h4 D⟩] hc4)⟩] hc3) hw

section Apply
variable (h4 : Quarter.BroadcastsInDim QuarterCol (![0, 1, 2, 3] : Fin 4 → Fin QuarterCol.rank))
  (hc4 : Shape.Concatenates [QuarterCol, QuarterCol] QuarterPair 4)
  (h5 : QuarterPair.BroadcastsInDim RowCells (![0, 1, 2, 4, 5] : Fin 5 → Fin RowCells.rank))
  (hc3 : Shape.Concatenates [RowCells, RowCells] Cells 3) (hw : Cells.ShapeCasts Whole)
  (A B C D : Quarter.Idx → α) (b : Fin 32) (c : Fin 3) (h w : Fin 256) (p q : Fin 512)

/-- A quarter with a unit last axis, read at (b, c, h, w, 0). -/
theorem col_apply (X : Quarter.Idx → α) :
    broadcastInDim QuarterCol ![0, 1, 2, 3] h4 X (ix5 b c h w (0 : Fin 1)) = X (ix4 b c h w) := by
  refine broadcastInDim_apply _ h4 _ (ix5 b c h w (0 : Fin 1)) (ix4 b c h w) ?_
  intro a
  match a with
  | ⟨0, _⟩ => rfl
  | ⟨1, _⟩ => rfl
  | ⟨2, _⟩ => rfl
  | ⟨3, _⟩ => rfl

/-- Two quarters side by side, read in the left one … -/
theorem pair_apply_left (X Y : Quarter.Idx → α) :
    concatenate QuarterPair 4 [⟨QuarterCol, broadcastInDim QuarterCol ![0, 1, 2, 3] h4 X⟩,
      ⟨QuarterCol, broadcastInDim QuarterCol ![0, 1, 2, 3] h4 Y⟩] hc4 (ix5 b c h w (0 : Fin 2)) = X (ix4 b c h w) := by
  refine (concatenate_pair_apply_left 4 _ _ hc4 (ix5 b c h w (0 : Fin 2)) rfl (ix5 b c h w (0 : Fin 1)) ?_).trans
    (col_apply h4 b c h w X)
  intro a
  match a with
  | ⟨0, _⟩ => rfl
  | ⟨1, _⟩ => rfl
  | ⟨2, _⟩ => rfl
  | ⟨3, _⟩ => rfl
  | ⟨4, _⟩ => rfl

/-- … and in the right one. -/
theorem pair_apply_right (X Y : Quarter.Idx → α) :
    concatenate QuarterPair 4 [⟨QuarterCol, broadcastInDim QuarterCol ![0, 1, 2, 3] h4 X⟩,
      ⟨QuarterCol, broadcastInDim QuarterCol ![0, 1, 2, 3] h4 Y⟩] hc4 (ix5 b c h w (1 : Fin 2)) = Y (ix4 b c h w) := by
  refine (concatenate_pair_apply_right 4 _ _ hc4 (ix5 b c h w (1 : Fin 2)) rfl rfl (ix5 b c h w (0 : Fin 1)) ?_ ?_).trans
    (col_apply h4 b c h w Y)
  · intro a hne
    match a, hne with
    | ⟨0, _⟩, _ => rfl
    | ⟨1, _⟩, _ => rfl
    | ⟨2, _⟩, _ => rfl
    | ⟨3, _⟩, _ => rfl
    | ⟨4, _⟩, hne => exact absurd rfl hne
  · rfl

/-- A row of every cell with a unit axis after the row axis, read at (b, c, h, 0, w, s). -/
theorem row_apply (Z : QuarterPair.Idx → α) (s : Fin 2) :
    broadcastInDim RowCells ![0, 1, 2, 4, 5] h5 Z (ix6 b c h (0 : Fin 1) w s) = Z (ix5 b c h w s) := by
  refine broadcastInDim_apply _ h5 _ (ix6 b c h (0 : Fin 1) w s) (ix5 b c h w s) ?_
  intro a
  match a with
  | ⟨0, _⟩ => rfl
  | ⟨1, _⟩ => rfl
  | ⟨2, _⟩ => rfl
  | ⟨3, _⟩ => rfl
  | ⟨4, _⟩ => rfl

/-- The two rows of every cell one after the other, read in the upper row … -/
theorem rows_apply_upper (Z Z' : QuarterPair.Idx → α) (s : Fin 2) :
    concatenate Cells 3 [⟨RowCells, broadcastInDim RowCells ![0, 1, 2, 4, 5] h5 Z⟩,
      ⟨RowCells, broadcastInDim RowCells ![0, 1, 2, 4, 5] h5 Z'⟩] hc3 (ix6 b c h (0 : Fin 2) w s) = Z (ix5 b c h w s) := by
  refine (concatenate_pair_apply_left 3 _ _ hc3 (ix6 b c h (0 : Fin 2) w s) rfl (ix6 b c h (0 : Fin 1) w s) ?_).trans
    (row_apply h5 b c h w Z s)
  intro a
  match a with
  | ⟨0, _⟩ => rfl
  | ⟨1, _⟩ => rfl
  | ⟨2, _⟩ => rfl
  | ⟨3, _⟩ => rfl
  | ⟨4, _⟩ => rfl
  | ⟨5, _⟩ => rfl

/-- … and in the lower row. -/
theorem rows_apply_lower (Z Z' : QuarterPair.Idx → α) (s : Fin 2) :
    concatenate Cells 3 [⟨RowCells, broadcastInDim RowCells ![0, 1, 2, 4, 5] h5 Z⟩,
      ⟨RowCells, broadcastInDim RowCells ![0, 1, 2, 4, 5] h5 Z'⟩] hc3 (ix6 b c h (1 : Fin 2) w s) = Z' (ix5 b c h w s) := by
  refine (concatenate_pair_apply_right 3 _ _ hc3 (ix6 b c h (1 : Fin 2) w s) rfl rfl (ix6 b c h (0 : Fin 1) w s) ?_ ?_).trans
    (row_apply h5 b c h w Z' s)
  · intro a hne
    match a, hne with
    | ⟨0, _⟩, _ => rfl
    | ⟨1, _⟩, _ => rfl
    | ⟨2, _⟩, _ => rfl
    | ⟨3, _⟩, hne => exact absurd rfl hne
    | ⟨4, _⟩, _ => rfl
    | ⟨5, _⟩, _ => rfl
  · rfl

/-- The interleaved array read as cells: entry (b, c, 2h + r, 2w + s) is the cell array's entry (b, c, h, r, w, s). -/
theorem whole_apply (Y : Cells.Idx → α) (r s : Fin 2) (hp : p.val = 2 * h.val + r.val) (hq : q.val = 2 * w.val + s.val) :
    shapeCast Whole Y hw (ix4 b c p q) = Y (ix6 b c h r w s) := by
  refine shapeCast_apply _ hw (ix4 b c p q) (ix6 b c h r w s) ?_
  rw [Shape.rowMajor_val_six, Shape.rowMajor_val_four]
  show ((((b.val * 3 + c.val) * 256 + h.val) * 2 + r.val) * 256 + w.val) * 2 + s.val = ((b.val * 3 + c.val) * 512 + p.val) * 512 + q.val
  omega

/-- At an even row and an even column the interleaved array reads A … -/
theorem interleave_apply_00 (hp : p.val = 2 * h.val + 0) (hq : q.val = 2 * w.val + 0) :
    interleave h4 hc4 h5 hc3 hw A B C D (ix4 b c p q) = A (ix4 b c h w) := by
  unfold interleave
  exact (whole_apply hw b c h w p q _ (0 : Fin 2) (0 : Fin 2) hp hq).trans
    ((rows_apply_upper h5 hc3 b c h w _ _ (0 : Fin 2)).trans (pair_apply_left h4 hc4 b c h w A B))

/-- … at an even row and an odd column B … -/
theorem interleave_apply_01 (hp : p.val = 2 * h.val + 0) (hq : q.val = 2 * w.val + 1) :
    interleave h4 hc4 h5 hc3 hw A B C D (ix4 b c p q) = B (ix4 b c h w) := by
  unfold interleave
  exact (whole_apply hw b c h w p q _ (0 : Fin 2) (1 : Fin 2) hp hq).trans
    ((rows_apply_upper h5 hc3 b c h w _ _ (1 : Fin 2)).trans (pair_apply_right h4 hc4 b c h w A B))

/-- … at an odd row and an even column C … -/
theorem interleave_apply_10 (hp : p.val = 2 * h.val + 1) (hq : q.val = 2 * w.val + 0) :
    interleave h4 hc4 h5 hc3 hw A B C D (ix4 b c p q) = C (ix4 b c h w) := by
  unfold interleave
  exact (whole_apply hw b c h w p q _ (1 : Fin 2) (0 : Fin 2) hp hq).trans
    ((rows_apply_lower h5 hc3 b c h w _ _ (0 : Fin 2)).trans (pair_apply_left h4 hc4 b c h w C D))

/-- … and at an odd row and an odd column D. -/
theorem interleave_apply_11 (hp : p.val = 2 * h.val + 1) (hq : q.val = 2 * w.val + 1) :
    interleave h4 hc4 h5 hc3 hw A B C D (ix4 b c p q) = D (ix4 b c h w) := by
  unfold interleave
  exact (whole_apply hw b c h w p q _ (1 : Fin 2) (1 : Fin 2) hp hq).trans
    ((rows_apply_lower h5 hc3 b c h w _ _ (1 : Fin 2)).trans (pair_apply_right h4 hc4 b c h w C D))

end Apply

/-- Interleaving the four corners of every cell of `x` gives `x`: entry (b, c, p, q) lies in row p mod 2 and
    column q mod 2 of cell (p / 2, q / 2), and that corner's entry there is the entry (b, c, p, q) of `x`. -/
theorem interleave_corners (h4 : Quarter.BroadcastsInDim QuarterCol (![0, 1, 2, 3] : Fin 4 → Fin QuarterCol.rank))
    (hc4 : Shape.Concatenates [QuarterCol, QuarterCol] QuarterPair 4)
    (h5 : QuarterPair.BroadcastsInDim RowCells (![0, 1, 2, 4, 5] : Fin 5 → Fin RowCells.rank))
    (hc3 : Shape.Concatenates [RowCells, RowCells] Cells 3) (hw : Cells.ShapeCasts Whole)
    (hc : Whole.ShapeCasts Cells) (hs00 : Cells.Slices ![0, 0, 0, 0, 0, 0] CornerCells)
    (hs01 : Cells.Slices ![0, 0, 0, 0, 0, 1] CornerCells) (hs10 : Cells.Slices ![0, 0, 0, 1, 0, 0] CornerCells)
    (hs11 : Cells.Slices ![0, 0, 0, 1, 0, 1] CornerCells) (hu : CornerCells.ShapeCasts Quarter) (x : Whole.Idx → α) :
    interleave h4 hc4 h5 hc3 hw (corner 0 0 hc hs00 hu x) (corner 0 1 hc hs01 hu x) (corner 1 0 hc hs10 hu x)
      (corner 1 1 hc hs11 hu x) = x := by
  funext j
  obtain ⟨b, c, p, q, rfl⟩ : ∃ (b : Fin 32) (c : Fin 3) (p q : Fin 512), j = ix4 b c p q := ⟨j 0, j 1, j 2, j 3, eq_ix4 j⟩
  have hpl : p.val / 2 < 256 := by have := p.isLt; omega
  have hql : q.val / 2 < 256 := by have := q.isLt; omega
  rcases Nat.mod_two_eq_zero_or_one p.val with hp | hp <;> rcases Nat.mod_two_eq_zero_or_one q.val with hq | hq
  · have ep : p.val = 2 * (⟨p.val / 2, hpl⟩ : Fin 256).val + 0 := by show p.val = 2 * (p.val / 2) + 0; omega
    have eq : q.val = 2 * (⟨q.val / 2, hql⟩ : Fin 256).val + 0 := by show q.val = 2 * (q.val / 2) + 0; omega
    exact (interleave_apply_00 h4 hc4 h5 hc3 hw _ _ _ _ b c _ _ p q ep eq).trans
      (corner_apply 0 0 (by omega) (by omega) hc hs00 hu x b c _ _ p q ep eq)
  · have ep : p.val = 2 * (⟨p.val / 2, hpl⟩ : Fin 256).val + 0 := by show p.val = 2 * (p.val / 2) + 0; omega
    have eq : q.val = 2 * (⟨q.val / 2, hql⟩ : Fin 256).val + 1 := by show q.val = 2 * (q.val / 2) + 1; omega
    exact (interleave_apply_01 h4 hc4 h5 hc3 hw _ _ _ _ b c _ _ p q ep eq).trans
      (corner_apply 0 1 (by omega) (by omega) hc hs01 hu x b c _ _ p q ep eq)
  · have ep : p.val = 2 * (⟨p.val / 2, hpl⟩ : Fin 256).val + 1 := by show p.val = 2 * (p.val / 2) + 1; omega
    have eq : q.val = 2 * (⟨q.val / 2, hql⟩ : Fin 256).val + 0 := by show q.val = 2 * (q.val / 2) + 0; omega
    exact (interleave_apply_10 h4 hc4 h5 hc3 hw _ _ _ _ b c _ _ p q ep eq).trans
      (corner_apply 1 0 (by omega) (by omega) hc hs10 hu x b c _ _ p q ep eq)
  · have ep : p.val = 2 * (⟨p.val / 2, hpl⟩ : Fin 256).val + 1 := by show p.val = 2 * (p.val / 2) + 1; omega
    have eq : q.val = 2 * (⟨q.val / 2, hql⟩ : Fin 256).val + 1 := by show q.val = 2 * (q.val / 2) + 1; omega
    exact (interleave_apply_11 h4 hc4 h5 hc3 hw _ _ _ _ b c _ _ p q ep eq).trans
      (corner_apply 1 1 (by omega) (by omega) hc hs11 hu x b c _ _ p q ep eq)

/-- Every entry of a corner array is an entry of the array it was cut from. -/
theorem corner_reads (r s : Nat) (hc : Whole.ShapeCasts Cells) (hs : Cells.Slices ![0, 0, 0, r, 0, s] CornerCells)
    (hu : CornerCells.ShapeCasts Quarter) (x : Whole.Idx → α) (i : Quarter.Idx) : ∃ k, corner r s hc hs hu x i = x k :=
  ⟨_, rfl⟩

end Cert.Haar.Cells512

end
-- ==== Proof.Cells256.lean ====
/-
  Cutting an array of 256×256 images into 2×2 cells, and putting it together again.

  An array x of shape [32, 3, 256, 256] is read as [32, 3, 128, 2, 128, 2]: entry (b, c, h, r, w, s) of the second
  is entry (b, c, 2h + r, 2w + s) of the first, because both sit at the same row-major position. Fixing (r, s)
  picks one corner of every 2×2 cell: an array of shape [32, 3, 128, 128] (`corner r s x`). In the other direction
  four arrays A, B, C, D of shape [32, 3, 128, 128] are interleaved (`interleave A B C D`): A and B are laid side by
  side along a new last axis, C and D likewise, the two pairs along a new axis after the row axis, and the
  [32, 3, 128, 2, 128, 2] array so obtained is read as [32, 3, 256, 256]; its entry (b, c, 2h + r, 2w + s) is the
  entry (b, c, h, w) of A, B, C or D as (r, s) is (0,0), (0,1), (1,0) or (1,1). Interleaving the four corners of x
  gives x back (`interleave_corners`). Nothing here depends on what the entries are.
-/
import Idealize.ShloMosaic.Lib.Pipeline.Value
import Idealize.ShloMosaic.Lib.ValueIdx
import Idealize.ShloMosaic.Lib.ValueIdxRank6

noncomputable section

namespace Cert.Haar.Cells256

open Idealize.ShloMosaic Idealize.ShloMosaic.ValueIdx

/-- The whole images. -/
abbrev Whole : Shape := ⟨4, ![32, 3, 256, 256]⟩
/-- One corner of every cell. -/
abbrev Quarter : Shape := ⟨4, ![32, 3, 128, 128]⟩
/-- The images cut into 2×2 cells. -/
abbrev Cells : Shape := ⟨6, ![32, 3, 128, 2, 128, 2]⟩
/-- One corner of every cell, the two cell axes kept with extent one. -/
abbrev CornerCells : Shape := ⟨6, ![32, 3, 128, 1, 128, 1]⟩
/-- A quarter with a new last axis of extent one … -/
abbrev QuarterCol : Shape := ⟨5, ![32, 3, 128, 128, 1]⟩
/-- … and two of them side by side: one row of every cell. -/
abbrev QuarterPair : Shape := ⟨5, ![32, 3, 128, 128, 2]⟩
/-- One row of every cell, with a new axis of extent one after the row axis. -/
abbrev RowCells : Shape := ⟨6, ![32, 3, 128, 1, 128, 2]⟩

variable {α : Type}

/-- Corner (r, s) of every 2×2 cell of `x`. -/
def corner (r s : Nat) (hc : Whole.ShapeCasts Cells) (hs : Cells.Slices ![0, 0, 0, r, 0, s] CornerCells)
    (hu : CornerCells.ShapeCasts Quarter) (x : Whole.Idx → α) : Quarter.Idx → α :=
  shapeCast Quarter (extractStridedSlice CornerCells ![0, 0, 0, r, 0, s] (shapeCast Cells x hc) hs) hu

/-- Entry (b, c, h, w) of corner (r, s) is entry (b, c, 2h + r, 2w + s) of the array. -/
theorem corner_apply (r s : Nat) (hr : r < 2) (hs2 : s < 2) (hc : Whole.ShapeCasts Cells)
    (hs : Cells.Slices ![0, 0, 0, r, 0, s] CornerCells) (hu : CornerCells.ShapeCasts Quarter) (x : Whole.Idx → α)
    (b : Fin 32) (c : Fin 3) (h w : Fin 128) (p q : Fin 256) (hp : p.val = 2 * h.val + r) (hq : q.val = 2 * w.val + s) :
    corner r s hc hs hu x (ix4 b c h w) = x (ix4 b c p q) := by
  unfold corner
  refine (shapeCast_apply _ hu (ix4 b c h w) (ix6 b c h (0 : Fin 1) w (0 : Fin 1)) ?_).trans ?_
  · rw [Shape.rowMajor_val_six, Shape.rowMajor_val_four]
    show (((((b.val * 3 + c.val) * 128 + h.val) * 1 + 0) * 128 + w.val) * 1 + 0) = ((b.val * 3 + c.val) * 128 + h.val) * 128 + w.val
    omega
  refine (extractStridedSlice_apply _ _ hs (ix6 b c h (0 : Fin 1) w (0 : Fin 1))
    (ix6 b c h (⟨r, hr⟩ : Fin 2) w (⟨s, hs2⟩ : Fin 2)) ?_).trans ?_
  · intro a
    match a with
    | ⟨0, _⟩ => exact (Nat.zero_add _).symm
    | ⟨1, _⟩ => exact (Nat.zero_add _).symm
    | ⟨2, _⟩ => exact (Nat.zero_add _).symm
    | ⟨3, _⟩ => rfl
    | ⟨4, _⟩ => exact (Nat.zero_add _).symm
    | ⟨5, _⟩ => rfl
  refine shapeCast_apply _ hc _ (ix4 b c p q) ?_
  rw [Shape.rowMajor_val_six, Shape.rowMajor_val_four]
  show ((b.val * 3 + c.val) * 256 + p.val) * 256 + q.val = ((((b.val * 3 + c.val) * 128 + h.val) * 2 + r) * 128 + w.val) * 2 + s
  omega

/-- The four arrays interleaved: A, B the upper row of every cell, C, D the lower. -/
def interleave (h4 : Quarter.BroadcastsInDim QuarterCol (![0, 1, 2, 3] : Fin 4 → Fin QuarterCol.rank))
    (hc4 : Shape.Concatenates [QuarterCol, QuarterCol] QuarterPair 4)
    (h5 : QuarterPair.BroadcastsInDim RowCells (![0, 1, 2, 4, 5] : Fin 5 → Fin RowCells.rank))
    (hc3 : Shape.Concatenates [RowCells, RowCells] Cells 3) (hw : Cells.ShapeCasts Whole)
    (A B C D : Quarter.Idx → α) : Whole.Idx → α :=
  shapeCast Whole (concatenate Cells 3
    [⟨RowCells, broadcastInDim RowCells ![0, 1, 2, 4, 5] h5 (concatenate QuarterPair 4
        [⟨QuarterCol, broadcastInDim QuarterCol ![0, 1, 2, 3] h4 A⟩, ⟨QuarterCol, broadcastInDim QuarterCol ![0, 1, 2, 3] h4 B⟩] hc4)⟩,
     ⟨RowCells, broadcastInDim RowCells ![0, 1, 2, 4, 5] h5 (concatenate QuarterPair 4
        [⟨QuarterCol, broadcastInDim QuarterCol ![0, 1, 2, 3] h4 C⟩, ⟨QuarterCol, broadcastInDim QuarterCol ![0, 1, 2, 3] h4 D⟩] hc4)⟩] hc3) hw

section Apply
variable (h4 : Quarter.BroadcastsInDim QuarterCol (![0, 1, 2, 3] : Fin 4 → Fin QuarterCol.rank))
  (hc4 : Shape.Concatenates [QuarterCol, QuarterCol] QuarterPair 4)
  (h5 : QuarterPair.BroadcastsInDim RowCells (![0, 1, 2, 4, 5] : Fin 5 → Fin RowCells.rank))
  (hc3 : Shape.Concatenates [RowCells, RowCells] Cells 3) (hw : Cells.ShapeCasts Whole)
  (A B C D : Quarter.Idx → α) (b : Fin 32) (c : Fin 3) (h w : Fin 128) (p q : Fin 256)

/-- A quarter with a unit last axis, read at (b, c, h, w, 0). -/
theorem col_apply (X : Quarter.Idx → α) :
    broadcastInDim QuarterCol ![0, 1, 2, 3] h4 X (ix5 b c h w (0 : Fin 1)) = X (ix4 b c h w) := by
  refine broadcastInDim_apply _ h4 _ (ix5 b c h w (0 : Fin 1)) (ix4 b c h w) ?_
  intro a
  match a with
  | ⟨0, _⟩ => rfl
  | ⟨1, _⟩ => rfl
  | ⟨2, _⟩ => rfl
  | ⟨3, _⟩ => rfl

/-- Two quarters side by side, read in the left one … -/
theorem pair_apply_left (X Y : Quarter.Idx → α) :
    concatenate QuarterPair 4 [⟨QuarterCol, broadcastInDim QuarterCol ![0, 1, 2, 3] h4 X⟩,
      ⟨QuarterCol, broadcastInDim QuarterCol ![0, 1, 2, 3] h4 Y⟩] hc4 (ix5 b c h w (0 : Fin 2)) = X (ix4 b c h w) := by
  refine (concatenate_pair_apply_left 4 _ _ hc4 (ix5 b c h w (0 : Fin 2)) rfl (ix5 b c h w (0 : Fin 1)) ?_).trans
    (col_apply h4 b c h w X)
  intro a
  match a with
  | ⟨0, _⟩ => rfl
  | ⟨1, _⟩ => rfl
  | ⟨2, _⟩ => rfl
  | ⟨3, _⟩ => rfl
  | ⟨4, _⟩ => rfl

/-- … and in the right one. -/
theorem pair_apply_right (X Y : Quarter.Idx → α) :
    concatenate QuarterPair 4 [⟨QuarterCol, broadcastInDim QuarterCol ![0, 1, 2, 3] h4 X⟩,
      ⟨QuarterCol, broadcastInDim QuarterCol ![0, 1, 2, 3] h4 Y⟩] hc4 (ix5 b c h w (1 : Fin 2)) = Y (ix4 b c h w) := by
  refine (concatenate_pair_apply_right 4 _ _ hc4 (ix5 b c h w (1 : Fin 2)) rfl rfl (ix5 b c h w (0 : Fin 1)) ?_ ?_).trans
    (col_apply h4 b c h w Y)
  · intro a hne
    match a, hne with
    | ⟨0, _⟩, _ => rfl
    | ⟨1, _⟩, _ => rfl
    | ⟨2, _⟩, _ => rfl
    | ⟨3, _⟩, _ => rfl
    | ⟨4, _⟩, hne => exact absurd rfl hne
  · rfl

/-- A row of every cell with a unit axis after the row axis, read at (b, c, h, 0, w, s). -/
theorem row_apply (Z : QuarterPair.Idx → α) (s : Fin 2) :
    broadcastInDim RowCells ![0, 1, 2, 4, 5] h5 Z (ix6 b c h (0 : Fin 1) w s) = Z (ix5 b c h w s) := by
  refine broadcastInDim_apply _ h5 _ (ix6 b c h (0 : Fin 1) w s) (ix5 b c h w s) ?_
  intro a
  match a with
  | ⟨0, _⟩ => rfl
  | ⟨1, _⟩ => rfl
  | ⟨2, _⟩ => rfl
  | ⟨3, _⟩ => rfl
  | ⟨4, _⟩ => rfl

/-- The two rows of every cell one after the other, read in the upper row … -/
theorem rows_apply_upper (Z Z' : QuarterPair.Idx → α) (s : Fin 2) :
    concatenate Cells 3 [⟨RowCells, broadcastInDim RowCells ![0, 1, 2, 4, 5] h5 Z⟩,
      ⟨RowCells, broadcastInDim RowCells ![0, 1, 2, 4, 5] h5 Z'⟩] hc3 (ix6 b c h (0 : Fin 2) w s) = Z (ix5 b c h w s) := by
  refine (concatenate_pair_apply_left 3 _ _ hc3 (ix6 b c h (0 : Fin 2) w s) rfl (ix6 b c h (0 : Fin 1) w s) ?_).trans
    (row_apply h5 b c h w Z s)
  intro a
  match a with
  | ⟨0, _⟩ => rfl
  | ⟨1, _⟩ => rfl
  | ⟨2, _⟩ => rfl
  | ⟨3, _⟩ => rfl
  | ⟨4, _⟩ => rfl
  | ⟨5, _⟩ => rfl

/-- … and in the lower row. -/
theorem rows_apply_lower (Z Z' : QuarterPair.Idx → α) (s : Fin 2) :
    concatenate Cells 3 [⟨RowCells, broadcastInDim RowCells ![0, 1, 2, 4, 5] h5 Z⟩,
      ⟨RowCells, broadcastInDim RowCells ![0, 1, 2, 4, 5] h5 Z'⟩] hc3 (ix6 b c h (1 : Fin 2) w s) = Z' (ix5 b c h w s) := by
  refine (concatenate_pair_apply_right 3 _ _ hc3 (ix6 b c h (1 : Fin 2) w s) rfl rfl (ix6 b c h (0 : Fin 1) w s) ?_ ?_).trans
    (row_apply h5 b c h w Z' s)
  · intro a hne
    match a, hne with
    | ⟨0, _⟩, _ => rfl
    | ⟨1, _⟩, _ => rfl
    | ⟨2, _⟩, _ => rfl
    | ⟨3, _⟩, hne => exact absurd rfl hne
    | ⟨4, _⟩, _ => rfl
    | ⟨5, _⟩, _ => rfl
  · rfl

/-- The interleaved array read as cells: entry (b, c, 2h + r, 2w + s) is the cell array's entry (b, c, h, r, w, s). -/
theorem whole_apply (Y : Cells.Idx → α) (r s : Fin 2) (hp : p.val = 2 * h.val + r.val) (hq : q.val = 2 * w.val + s.val) :
    shapeCast Whole Y hw (ix4 b c p q) = Y (ix6 b c h r w s) := by
  refine shapeCast_apply _ hw (ix4 b c p q) (ix6 b c h r w s) ?_
  rw [Shape.rowMajor_val_six, Shape.rowMajor_val_four]
  show ((((b.val * 3 + c.val) * 128 + h.val) * 2 + r.val) * 128 + w.val) * 2 + s.val = ((b.val * 3 + c.val) * 256 + p.val) * 256 + q.val
  omega

/-- At an even row and an even column the interleaved array reads A … -/
theorem interleave_apply_00 (hp : p.val = 2 * h.val + 0) (hq : q.val = 2 * w.val + 0) :
    interleave h4 hc4 h5 hc3 hw A B C D (ix4 b c p q) = A (ix4 b c h w) := by
  unfold interleave
  exact (whole_apply hw b c h w p q _ (0 : Fin 2) (0 : Fin 2) hp hq).trans
    ((rows_apply_upper h5 hc3 b c h w _ _ (0 : Fin 2)).trans (pair_apply_left h4 hc4 b c h w A B))

/-- … at an even row and an odd column B … -/
theorem interleave_apply_01 (hp : p.val = 2 * h.val + 0) (hq : q.val = 2 * w.val + 1) :
    interleave h4 hc4 h5 hc3 hw A B C D (ix4 b c p q) = B (ix4 b c h w) := by
  unfold interleave
  exact (whole_apply hw b c h w p q _ (0 : Fin 2) (1 : Fin 2) hp hq).trans
    ((rows_apply_upper h5 hc3 b c h w _ _ (1 : Fin 2)).trans (pair_apply_right h4 hc4 b c h w A B))

/-- … at an odd row and an even column C … -/
theorem interleave_apply_10 (hp : p.val = 2 * h.val + 1) (hq : q.val = 2 * w.val + 0) :
    interleave h4 hc4 h5 hc3 hw A B C D (ix4 b c p q) = C (ix4 b c h w) := by
  unfold interleave
  exact (whole_apply hw b c h w p q _ (1 : Fin 2) (0 : Fin 2) hp hq).trans
    ((rows_apply_lower h5 hc3 b c h w _ _ (0 : Fin 2)).trans (pair_apply_left h4 hc4 b c h w C D))

/-- … and at an odd row and an odd column D. -/
theorem interleave_apply_11 (hp : p.val = 2 * h.val + 1) (hq : q.val = 2 * w.val + 1) :
    interleave h4 hc4 h5 hc3 hw A B C D (ix4 b c p q) = D (ix4 b c h w) := by
  unfold interleave
  exact (whole_apply hw b c h w p q _ (1 : Fin 2) (1 : Fin 2) hp hq).trans
    ((rows_apply_lower h5 hc3 b c h w _ _ (1 : Fin 2)).trans (pair_apply_right h4 hc4 b c h w C D))

end Apply

/-- Interleaving the four corners of every cell of `x` gives `x`: entry (b, c, p, q) lies in row p mod 2 and
    column q mod 2 of cell (p / 2, q / 2), and that corner's entry there is the entry (b, c, p, q) of `x`. -/
theorem interleave_corners (h4 : Quarter.BroadcastsInDim QuarterCol (![0, 1, 2, 3] : Fin 4 → Fin QuarterCol.rank))
    (hc4 : Shape.Concatenates [QuarterCol, QuarterCol] QuarterPair 4)
    (h5 : QuarterPair.BroadcastsInDim RowCells (![0, 1, 2, 4, 5] : Fin 5 → Fin RowCells.rank))
    (hc3 : Shape.Concatenates [RowCells, RowCells] Cells 3) (hw : Cells.ShapeCasts Whole)
    (hc : Whole.ShapeCasts Cells) (hs00 : Cells.Slices ![0, 0, 0, 0, 0, 0] CornerCells)
    (hs01 : Cells.Slices ![0, 0, 0, 0, 0, 1] CornerCells) (hs10 : Cells.Slices ![0, 0, 0, 1, 0, 0] CornerCells)
    (hs11 : Cells.Slices ![0, 0, 0, 1, 0, 1] CornerCells) (hu : CornerCells.ShapeCasts Quarter) (x : Whole.Idx → α) :
    interleave h4 hc4 h5 hc3 hw (corner 0 0 hc hs00 hu x) (corner 0 1 hc hs01 hu x) (corner 1 0 hc hs10 hu x)
      (corner 1 1 hc hs11 hu x) = x := by
  funext j
  obtain ⟨b, c, p, q, rfl⟩ : ∃ (b : Fin 32) (c : Fin 3) (p q : Fin 256), j = ix4 b c p q := ⟨j 0, j 1, j 2, j 3, eq_ix4 j⟩
  have hpl : p.val / 2 < 128 := by have := p.isLt; omega
  have hql : q.val / 2 < 128 := by have := q.isLt; omega
  rcases Nat.mod_two_eq_zero_or_one p.val with hp | hp <;> rcases Nat.mod_two_eq_zero_or_one q.val with hq | hq
  · have ep : p.val = 2 * (⟨p.val / 2, hpl⟩ : Fin 128).val + 0 := by show p.val = 2 * (p.val / 2) + 0; omega
    have eq : q.val = 2 * (⟨q.val / 2, hql⟩ : Fin 128).val + 0 := by show q.val = 2 * (q.val / 2) + 0; omega
    exact (interleave_apply_00 h4 hc4 h5 hc3 hw _ _ _ _ b c _ _ p q ep eq).trans
      (corner_apply 0 0 (by omega) (by omega) hc hs00 hu x b c _ _ p q ep eq)
  · have ep : p.val = 2 * (⟨p.val / 2, hpl⟩ : Fin 128).val + 0 := by show p.val = 2 * (p.val / 2) + 0; omega
    have eq : q.val = 2 * (⟨q.val / 2, hql⟩ : Fin 128).val + 1 := by show q.val = 2 * (q.val / 2) + 1; omega
    exact (interleave_apply_01 h4 hc4 h5 hc3 hw _ _ _ _ b c _ _ p q ep eq).trans
      (corner_apply 0 1 (by omega) (by omega) hc hs01 hu x b c _ _ p q ep eq)
  · have ep : p.val = 2 * (⟨p.val / 2, hpl⟩ : Fin 128).val + 1 := by show p.val = 2 * (p.val / 2) + 1; omega
    have eq : q.val = 2 * (⟨q.val / 2, hql⟩ : Fin 128).val + 0 := by show q.val = 2 * (q.val / 2) + 0; omega
    exact (interleave_apply_10 h4 hc4 h5 hc3 hw _ _ _ _ b c _ _ p q ep eq).trans
      (corner_apply 1 0 (by omega) (by omega) hc hs10 hu x b c _ _ p q ep eq)
  · have ep : p.val = 2 * (⟨p.val / 2, hpl⟩ : Fin 128).val + 1 := by show p.val = 2 * (p.val / 2) + 1; omega
    have eq : q.val = 2 * (⟨q.val / 2, hql⟩ : Fin 128).val + 1 := by show q.val = 2 * (q.val / 2) + 1; omega
    exact (interleave_apply_11 h4 hc4 h5 hc3 hw _ _ _ _ b c _ _ p q ep eq).trans
      (corner_apply 1 1 (by omega) (by omega) hc hs11 hu x b c _ _ p q ep eq)

/-- Every entry of a corner array is an entry of the array it was cut from. -/
theorem corner_reads (r s : Nat) (hc : Whole.ShapeCasts Cells) (hs : Cells.Slices ![0, 0, 0, r, 0, s] CornerCells)
    (hu : CornerCells.ShapeCasts Quarter) (x : Whole.Idx → α) (i : Quarter.Idx) : ∃ k, corner r s hc hs hu x i = x k :=
  ⟨_, rfl⟩

end Cert.Haar.Cells256

end
-- ==== Proof.RefValue.lean ====
/-
  What the reference computes, on a real-valued input: the input itself.

  The reference cuts x into 2×2 cells, takes the four corners a, b, c, d of every cell, forms the four Haar
  combinations LL₁, LH₁, HL₁, HH₁ of them, does the same once more to LL₁ (corners a₂, b₂, c₂, d₂ and combinations
  LL₂, LH₂, HL₂, HH₂), and then goes back: the inverse combinations of LL₂, LH₂, HL₂, HH₂ are interleaved into an
  array r₁, and the inverse combinations of r₁, LH₁, HL₁, HH₁ are interleaved into the result.
  On a real-valued x every array on the way is real-valued; so the inverse combinations at the second level are
  a₂, b₂, c₂, d₂ again, their interleaving r₁ is LL₁, the inverse combinations at the first level are then
  a, b, c, d, and their interleaving is x.
-/
import proofs.«144112_j39943195853363_2_alg».proof.Proof.RefRun
import proofs.«144112_j39943195853363_2_alg».proof.Proof.HaarAlgebra
import proofs.«144112_j39943195853363_2_alg».proof.Proof.Cells512
import proofs.«144112_j39943195853363_2_alg».proof.Proof.Cells256

set_option maxRecDepth 8192

noncomputable section

namespace Cert.ReferenceIdeal.RefValue

open Cert.ReferenceIdeal Cert.ReferenceIdeal.Gen Cert.ReferenceIdeal.HandRun Cert.Haar
open Idealize.ShloMosaic Idealize.ShloMosaic.TcCoe Idealize.SL.Sem Idealize.ShloMosaic.StableHlo

variable (V0 : Valuation τ sig (Elt Ideal))

/-- The input array. -/
def X : FVec Ideal S32x3x512x512 .f32 := V0 (Proc.devRef .tc main_arg0)

/-- One half at every entry of a 256×256 array … -/
def H256 : FVec Ideal S32x3x256x256 .f32 :=
  broadcastInDim S32x3x256x256 ![] bcast_S_S32x3x256x256 (constant (F := Ideal) S_ .f32 0x3F000000#32)
/-- … and of a 128×128 array. -/
def H128 : FVec Ideal S32x3x128x128 .f32 :=
  broadcastInDim S32x3x128x128 ![] bcast_S_S32x3x128x128 (constant (F := Ideal) S_ .f32 0x3F000000#32)

theorem isHalf_H256 : IsHalf H256 := fun _ => ofBits_half
theorem isHalf_H128 : IsHalf H128 := fun _ => ofBits_half

/-! ## The first level: the corners of the input's cells -/

def A1 : FVec Ideal S32x3x256x256 .f32 :=
  Cells512.corner 0 0 shapeCasts_S32x3x512x512_S32x3x256x2x256x2 slices_S32x3x256x2x256x2_S32x3x256x1x256x1_0_0_0_0_0_0
    shapeCasts_S32x3x256x1x256x1_S32x3x256x256 (X V0)
def B1 : FVec Ideal S32x3x256x256 .f32 :=
  Cells512.corner 0 1 shapeCasts_S32x3x512x512_S32x3x256x2x256x2 slices_S32x3x256x2x256x2_S32x3x256x1x256x1_0_0_0_0_0_1
    shapeCasts_S32x3x256x1x256x1_S32x3x256x256 (X V0)
def C1 : FVec Ideal S32x3x256x256 .f32 :=
  Cells512.corner 1 0 shapeCasts_S32x3x512x512_S32x3x256x2x256x2 slices_S32x3x256x2x256x2_S32x3x256x1x256x1_0_0_0_1_0_0
    shapeCasts_S32x3x256x1x256x1_S32x3x256x256 (X V0)
def D1 : FVec Ideal S32x3x256x256 .f32 :=
  Cells512.corner 1 1 shapeCasts_S32x3x512x512_S32x3x256x2x256x2 slices_S32x3x256x2x256x2_S32x3x256x1x256x1_0_0_0_1_0_1
    shapeCasts_S32x3x256x1x256x1_S32x3x256x256 (X V0)

/-- The half-sum of the four corners: the array the second level works on. -/
def LL1 : FVec Ideal S32x3x256x256 .f32 := fLL (A1 V0) (B1 V0) (C1 V0) (D1 V0) H256

theorem e2 : res_main_v2 V0 = A1 V0 := rfl
theorem e4 : res_main_v4 V0 = B1 V0 := rfl
theorem e6 : res_main_v6 V0 = C1 V0 := rfl
theorem e8 : res_main_v8 V0 = D1 V0 := rfl
theorem e18 : res_main_v18 V0 = fLH (A1 V0) (B1 V0) (C1 V0) (D1 V0) H256 := rfl
theorem e23 : res_main_v23 V0 = fHL (A1 V0) (B1 V0) (C1 V0) (D1 V0) H256 := rfl
theorem e28 : res_main_v28 V0 = fHH (A1 V0) (B1 V0) (C1 V0) (D1 V0) H256 := rfl

/-! ## The second level: the corners of LL₁'s cells -/

def A2 : FVec Ideal S32x3x128x128 .f32 :=
  Cells256.corner 0 0 shapeCasts_S32x3x256x256_S32x3x128x2x128x2 slices_S32x3x128x2x128x2_S32x3x128x1x128x1_0_0_0_0_0_0
    shapeCasts_S32x3x128x1x128x1_S32x3x128x128 (LL1 V0)
def B2 : FVec Ideal S32x3x128x128 .f32 :=
  Cells256.corner 0 1 shapeCasts_S32x3x256x256_S32x3x128x2x128x2 slices_S32x3x128x2x128x2_S32x3x128x1x128x1_0_0_0_0_0_1
    shapeCasts_S32x3x128x1x128x1_S32x3x128x128 (LL1 V0)
def C2 : FVec Ideal S32x3x128x128 .f32 :=
  Cells256.corner 1 0 shapeCasts_S32x3x256x256_S32x3x128x2x128x2 slices_S32x3x128x2x128x2_S32x3x128x1x128x1_0_0_0_1_0_0
    shapeCasts_S32x3x128x1x128x1_S32x3x128x128 (LL1 V0)
def D2 : FVec Ideal S32x3x128x128 .f32 :=
  Cells256.corner 1 1 shapeCasts_S32x3x256x256_S32x3x128x2x128x2 slices_S32x3x128x2x128x2_S32x3x128x1x128x1_0_0_0_1_0_1
    shapeCasts_S32x3x128x1x128x1_S32x3x128x128 (LL1 V0)

theorem e31 : res_main_v31 V0 = A2 V0 := rfl
theorem e33 : res_main_v33 V0 = B2 V0 := rfl
theorem e35 : res_main_v35 V0 = C2 V0 := rfl
theorem e37 : res_main_v37 V0 = D2 V0 := rfl
theorem e42 : res_main_v42 V0 = fLL (A2 V0) (B2 V0) (C2 V0) (D2 V0) H128 := rfl
theorem e47 : res_main_v47 V0 = fLH (A2 V0) (B2 V0) (C2 V0) (D2 V0) H128 := rfl
theorem e52 : res_main_v52 V0 = fHL (A2 V0) (B2 V0) (C2 V0) (D2 V0) H128 := rfl
theorem e57 : res_main_v57 V0 = fHH (A2 V0) (B2 V0) (C2 V0) (D2 V0) H128 := rfl

/-- The array the reference rebuilds from the second level is the interleaving of the four inverse combinations. -/
theorem e87 : res_main_v87 V0 =
    Cells256.interleave bcast_S32x3x128x128_S32x3x128x128x1_0_1_2_3 concatenates_S32x3x128x128x1_S32x3x128x128x1_S32x3x128x128x2_d4
      bcast_S32x3x128x128x2_S32x3x128x1x128x2_0_1_2_4_5 concatenates_S32x3x128x1x128x2_S32x3x128x1x128x2_S32x3x128x2x128x2_d3
      shapeCasts_S32x3x128x2x128x2_S32x3x256x256
      (gA (res_main_v42 V0) (res_main_v47 V0) (res_main_v52 V0) (res_main_v57 V0) H128)
      (gB (res_main_v42 V0) (res_main_v47 V0) (res_main_v52 V0) (res_main_v57 V0) H128)
      (gC (res_main_v42 V0) (res_main_v47 V0) (res_main_v52 V0) (res_main_v57 V0) H128)
      (gD (res_main_v42 V0) (res_main_v47 V0) (res_main_v52 V0) (res_main_v57 V0) H128) := rfl

/-! ## Real-valued all the way -/

variable (hx : IsReal (X V0))
include hx

theorem isReal_A1 : IsReal (A1 V0) := hx.of_reads (Cells512.corner_reads 0 0 _ _ _ _)
theorem isReal_B1 : IsReal (B1 V0) := hx.of_reads (Cells512.corner_reads 0 1 _ _ _ _)
theorem isReal_C1 : IsReal (C1 V0) := hx.of_reads (Cells512.corner_reads 1 0 _ _ _ _)
theorem isReal_D1 : IsReal (D1 V0) := hx.of_reads (Cells512.corner_reads 1 1 _ _ _ _)
theorem isReal_LL1 : IsReal (LL1 V0) :=
  isReal_fLL isHalf_H256 (isReal_A1 V0 hx) (isReal_B1 V0 hx) (isReal_C1 V0 hx) (isReal_D1 V0 hx)
theorem isReal_A2 : IsReal (A2 V0) := (isReal_LL1 V0 hx).of_reads (Cells256.corner_reads 0 0 _ _ _ _)
theorem isReal_B2 : IsReal (B2 V0) := (isReal_LL1 V0 hx).of_reads (Cells256.corner_reads 0 1 _ _ _ _)
theorem isReal_C2 : IsReal (C2 V0) := (isReal_LL1 V0 hx).of_reads (Cells256.corner_reads 1 0 _ _ _ _)
theorem isReal_D2 : IsReal (D2 V0) := (isReal_LL1 V0 hx).of_reads (Cells256.corner_reads 1 1 _ _ _ _)

/-! ## Going back -/

/-- The second level undone: the rebuilt array is LL₁. -/
theorem rebuilt_eq : res_main_v87 V0 = LL1 V0 := by
  rw [e87, e42, e47, e52, e57,
    gA_fwd isHalf_H128 (isReal_A2 V0 hx) (isReal_B2 V0 hx) (isReal_C2 V0 hx) (isReal_D2 V0 hx),
    gB_fwd isHalf_H128 (isReal_A2 V0 hx) (isReal_B2 V0 hx) (isReal_C2 V0 hx) (isReal_D2 V0 hx),
    gC_fwd isHalf_H128 (isReal_A2 V0 hx) (isReal_B2 V0 hx) (isReal_C2 V0 hx) (isReal_D2 V0 hx),
    gD_fwd isHalf_H128 (isReal_A2 V0 hx) (isReal_B2 V0 hx) (isReal_C2 V0 hx) (isReal_D2 V0 hx)]
  exact Cells256.interleave_corners _ _ _ _ _ _ _ _ _ _ _ (LL1 V0)

/-- The first level undone: the interleaving of the four inverse combinations of the rebuilt array and the first
    level's differences is the input. -/
theorem result_eq :
    Cells512.interleave bcast_S32x3x256x256_S32x3x256x256x1_0_1_2_3 concatenates_S32x3x256x256x1_S32x3x256x256x1_S32x3x256x256x2_d4
      bcast_S32x3x256x256x2_S32x3x256x1x256x2_0_1_2_4_5 concatenates_S32x3x256x1x256x2_S32x3x256x1x256x2_S32x3x256x2x256x2_d3
      shapeCasts_S32x3x256x2x256x2_S32x3x512x512
      (gA (res_main_v87 V0) (res_main_v18 V0) (res_main_v23 V0) (res_main_v28 V0) H256)
      (gB (res_main_v87 V0) (res_main_v18 V0) (res_main_v23 V0) (res_main_v28 V0) H256)
      (gC (res_main_v87 V0) (res_main_v18 V0) (res_main_v23 V0) (res_main_v28 V0) H256)
      (gD (res_main_v87 V0) (res_main_v18 V0) (res_main_v23 V0) (res_main_v28 V0) H256) = X V0 := by
  rw [rebuilt_eq V0 hx, e18, e23, e28]
  show Cells512.interleave _ _ _ _ _
      (gA (fLL (A1 V0) (B1 V0) (C1 V0) (D1 V0) H256) (fLH (A1 V0) (B1 V0) (C1 V0) (D1 V0) H256)
        (fHL (A1 V0) (B1 V0) (C1 V0) (D1 V0) H256) (fHH (A1 V0) (B1 V0) (C1 V0) (D1 V0) H256) H256)
      (gB (fLL (A1 V0) (B1 V0) (C1 V0) (D1 V0) H256) (fLH (A1 V0) (B1 V0) (C1 V0) (D1 V0) H256)
        (fHL (A1 V0) (B1 V0) (C1 V0) (D1 V0) H256) (fHH (A1 V0) (B1 V0) (C1 V0) (D1 V0) H256) H256)
      (gC (fLL (A1 V0) (B1 V0) (C1 V0) (D1 V0) H256) (fLH (A1 V0) (B1 V0) (C1 V0) (D1 V0) H256)
        (fHL (A1 V0) (B1 V0) (C1 V0) (D1 V0) H256) (fHH (A1 V0) (B1 V0) (C1 V0) (D1 V0) H256) H256)
      (gD (fLL (A1 V0) (B1 V0) (C1 V0) (D1 V0) H256) (fLH (A1 V0) (B1 V0) (C1 V0) (D1 V0) H256)
        (fHL (A1 V0) (B1 V0) (C1 V0) (D1 V0) H256) (fHH (A1 V0) (B1 V0) (C1 V0) (D1 V0) H256) H256) = X V0
  rw [gA_fwd isHalf_H256 (isReal_A1 V0 hx) (isReal_B1 V0 hx) (isReal_C1 V0 hx) (isReal_D1 V0 hx),
    gB_fwd isHalf_H256 (isReal_A1 V0 hx) (isReal_B1 V0 hx) (isReal_C1 V0 hx) (isReal_D1 V0 hx),
    gC_fwd isHalf_H256 (isReal_A1 V0 hx) (isReal_B1 V0 hx) (isReal_C1 V0 hx) (isReal_D1 V0 hx),
    gD_fwd isHalf_H256 (isReal_A1 V0 hx) (isReal_B1 V0 hx) (isReal_C1 V0 hx) (isReal_D1 V0 hx)]
  exact Cells512.interleave_corners _ _ _ _ _ _ _ _ _ _ _ (X V0)

end Cert.ReferenceIdeal.RefValue

end
-- ==== Proof.FiniteInputs.lean ====
/-
  The precondition read back: every entry of the input is a real number.

  The precondition compares |x| with +∞ entry by entry and takes the conjunction over all entries; it is stated
  to be true. A conjunction that is true is true of every entry, so |x i| < +∞ for every index i. On the extended
  reals |y| is max y (−y), which is +∞ exactly when y is one of the two infinities; so x i is a real number.
-/
import proofs.«144112_j39943195853363_2_alg».proof.Proof.Gen.Pre_finite_inputs
import proofs.«144112_j39943195853363_2_alg».proof.Proof.HaarAlgebra
import Idealize.ShloMosaic.Lib.ReduceAll
import Idealize.ShloMosaic.PureOps.Ideal.Laws

noncomputable section

namespace Cert.Haar

open Idealize.ShloMosaic Idealize.ShloMosaic.ValueIdx

/-- The single-precision word of +∞ denotes +∞. -/
theorem ofBits_inf : Ideal.ofBits .f32 0x7F800000#32 = (⊤ : EReal) := by
  simp [Ideal.ofBits, Ideal.ieee]

/-- An input of which the precondition holds is real-valued. -/
theorem isReal_of_finite_inputs (x : FVec Ideal Cert.Pre_finite_inputs.S32x3x512x512 .f32)
    (h : Cert.Pre_finite_inputs.fn (F := Ideal) x = fun _ => 1#1) : IsReal x := by
  intro i
  have e := congrFun h ix0
  dsimp only [Cert.Pre_finite_inputs.fn] at e
  haveI : Subsingleton Cert.Pre_finite_inputs.S_.Idx := ⟨fun a b => funext fun d => d.elim0⟩
  have hi := Host.reduce_andi_all _ _ _ _ _ e i
  have h1 : BitVec.ofBool (decide (max (x i) (-(x i)) < Ideal.ofBits .f32 0x7F800000#32)) = 1#1 := hi
  rw [ofBits_inf] at h1
  have hlt : max (x i) (-(x i)) < (⊤ : EReal) := by
    cases hd : decide (max (x i) (-(x i)) < (⊤ : EReal)) with
    | true => exact of_decide_eq_true hd
    | false => rw [hd] at h1; exact absurd h1 (by decide)
  induction hxi : x i using EReal.rec with
  | bot => rw [hxi] at hlt; simp at hlt
  | coe r => exact ⟨r, rfl⟩
  | top => rw [hxi] at hlt; simp at hlt

end Cert.Haar

end
-- ==== Proof.lean ====
/-
  The kernel is a tiled copy; the reference is two levels of the orthonormal Haar transform followed by the two
  inverse levels. On an input all of whose entries are real numbers — which is what the precondition says — the
  inverse levels undo the forward ones exactly, so the reference returns its input, and so does the copy.

  * The three programs run to the end with their argument unchanged: for the two kernel programs this is the
    generated frame; for the reference it is its run read back.
  * The idealization rewrote nothing, so there is nothing to preserve.
  * Both idealized programs end with the common input as their result: the copy because re-indexing forth and
    back is the identity and the blocks cover the array; the reference because, entry by entry,
    ((a+b+c+d)/2 − (c+d−a−b)/2 − (b+d−a−c)/2 + (a+d−b−c)/2)/2 = a over the reals (and likewise for b, c, d),
    applied once to the half-sums of the first level's cells and once to the input's cells.
-/
import proofs.«144112_j39943195853363_2_alg».proof.Defs
import proofs.«144112_j39943195853363_2_alg».proof.Proof.Gen.Kernel
import proofs.«144112_j39943195853363_2_alg».proof.Proof.Gen.Kernel.Skeleton
import proofs.«144112_j39943195853363_2_alg».proof.Proof.Gen.Kernel.Launch
import proofs.«144112_j39943195853363_2_alg».proof.Proof.Gen.Kernel.Points
import proofs.«144112_j39943195853363_2_alg».proof.Proof.Gen.Kernel.Frame
import proofs.«144112_j39943195853363_2_alg».proof.Proof.Gen.KernelIdeal
import proofs.«144112_j39943195853363_2_alg».proof.Proof.Gen.KernelIdeal.Skeleton
import proofs.«144112_j39943195853363_2_alg».proof.Proof.Gen.KernelIdeal.Launch
import proofs.«144112_j39943195853363_2_alg».proof.Proof.Gen.KernelIdeal.Points
import proofs.«144112_j39943195853363_2_alg».proof.Proof.Gen.KernelIdeal.Frame
import proofs.«144112_j39943195853363_2_alg».proof.Proof.Gen.ReferenceIdeal
import proofs.«144112_j39943195853363_2_alg».proof.Proof.Gen.Pre_finite_inputs
import proofs.«144112_j39943195853363_2_alg».proof.Proof.KernelValue
import proofs.«144112_j39943195853363_2_alg».proof.Proof.RefRun
import proofs.«144112_j39943195853363_2_alg».proof.Proof.RefValue
import proofs.«144112_j39943195853363_2_alg».proof.Proof.FiniteInputs
import Idealize.ShloMosaic.Adequacy
import Idealize.ShloMosaic.Init

noncomputable section

namespace Cert.Proof

open Idealize.ShloMosaic Idealize.ShloMosaic.TcCoe Idealize.SL.Sem

/-- The kernel as printed runs to the end and keeps its argument. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run read back, the result forgotten. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- From memories that agree on a real-valued input both idealized programs end with that input as their result:
    the copy returns its argument whatever it is, and the reference's two Haar levels and their inverses cancel
    on real numbers. -/
theorem algebraic : Cert.algebraic_KernelIdeal_ReferenceIdeal := by
  intro m ρ m' ρ' hpre hagree
  refine ⟨fun c => m ((c.tc : Thread Cert.KernelIdeal.nD Cert.KernelIdeal.τ).loc Cert.KernelIdeal.main_arg0),
    Cert.KernelIdeal.CopyValue.run (F := Ideal) m ρ, ?_⟩
  refine (θ_run Cert.ReferenceIdeal.defs _ _).mono (fun _ h c => ⟨(h c).1.trans ?_, (h c).2⟩)
    (Cert.ReferenceIdeal.HandRun.run (F := Ideal) m' ρ')
  have hx : Cert.Haar.IsReal (Cert.ReferenceIdeal.RefValue.X (StableHlo.launchContents m' c)) := by
    have e : Cert.ReferenceIdeal.RefValue.X (StableHlo.launchContents m' c)
        = m ((c.tc : Thread Cert.KernelIdeal.nD Cert.KernelIdeal.τ).loc Cert.KernelIdeal.main_arg0) := hagree c
    rw [e]
    exact Cert.Haar.isReal_of_finite_inputs _ (hpre c)
  exact (Cert.ReferenceIdeal.RefValue.result_eq (StableHlo.launchContents m' c) hx).trans (hagree c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
